-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S1600000 : Shape := ⟨1, ![1600000]⟩
abbrev S512x64 : Shape := ⟨2, ![512, 64]⟩
abbrev S64 : Shape := ⟨1, ![64]⟩
abbrev S64x64 : Shape := ⟨2, ![64, 64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x512 .f32) (main_arg1 : IVec S2x1600000 32) (main_arg2 : FVec F S1600000 .f32) (main_arg3 : FVec F S512x64 .f32) (main_arg4 : FVec F S64 .f32) (main_arg5 : FVec F S64x64 .f32) (main_arg6 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x64 .f32 := Host.absf main_arg3
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x512 : Shape := ⟨2, ![100000, 512]⟩
abbrev S2x1600000 : Shape := ⟨2, ![2, 1600000]⟩
abbrev S1600000 : Shape := ⟨1, ![1600000]⟩
abbrev S512x64 : Shape := ⟨2, ![512, 64]⟩
abbrev S64 : Shape := ⟨1, ![64]⟩
abbrev S64x64 : Shape := ⟨2, ![64, 64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S5000x512 : Shape := ⟨2, ![5000, 512]⟩
abbrev S5000x64 : Shape := ⟨2, ![5000, 64]⟩

abbrev nBuf : Space → Nat
  | .hbm => 87
  | .vmem => 11
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S1600000, .f32⟩
  | .hbm, ⟨3, _⟩ => ⟨S512x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x64, .f32⟩
  | .hbm, ⟨77, _⟩ => ⟨S1700000x1, .f32⟩
  | .hbm, ⟨78, _⟩ => ⟨S1700000x64, .f32⟩
  | .hbm, ⟨79, _⟩ => ⟨S1700000x64, .f32⟩
  | .hbm, ⟨80, _⟩ => ⟨S_, .f32⟩
  | .hbm, ⟨81, _⟩ => ⟨S100000x64, .f32⟩
  | .hbm, ⟨82, _⟩ => ⟨S1700000x1, .i32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | .local _ .vmem, ⟨0, _⟩ => ⟨S5000x512, .f32⟩
  | .local _ .vmem, ⟨1, _⟩ => ⟨S5000x512, .f32⟩
  | .local _ .vmem, ⟨2, _⟩ => ⟨S512x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst : Ref sig .tc := ⟨.hbm, 14, rfl⟩
abbrev main_call0_v7 : Ref sig .tc := ⟨.hbm, 15, rfl⟩
abbrev main_call0_v8 : Ref sig .tc := ⟨.hbm, 16, rfl⟩
abbrev main_call0_cst_0 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_cst_1 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst_2 : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_v15 : Ref sig .tc := ⟨.hbm, 28, rfl⟩
abbrev main_call0_c : Ref sig .tc := ⟨.hbm, 29, rfl⟩
abbrev main_call0_v16 : Ref sig .tc := ⟨.hbm, 30, rfl⟩
abbrev main_call0_v17 : Ref sig .tc := ⟨.hbm, 31, rfl⟩
abbrev main_call0_c_3 : Ref sig .tc := ⟨.hbm, 32, rfl⟩
abbrev main_call0_v18 : Ref sig .tc := ⟨.hbm, 33, rfl⟩
abbrev main_call0_v19 : Ref sig .tc := ⟨.hbm, 34, rfl⟩
abbrev main_call0_v20 : Ref sig .tc := ⟨.hbm, 35, rfl⟩
abbrev main_call0_v21 : Ref sig .tc := ⟨.hbm, 36, rfl⟩
abbrev main_call0_v22 : Ref sig .tc := ⟨.hbm, 37, rfl⟩
abbrev main_call0_v23 : Ref sig .tc := ⟨.hbm, 38, rfl⟩
abbrev main_call0_c_4 : Ref sig .tc := ⟨.hbm, 39, rfl⟩
abbrev main_call0_v24 : Ref sig .tc := ⟨.hbm, 40, rfl⟩
abbrev main_call0_v25 : Ref sig .tc := ⟨.hbm, 41, rfl⟩
abbrev main_call0_c_5 : Ref sig .tc := ⟨.hbm, 42, rfl⟩
abbrev main_call0_v26 : Ref sig .tc := ⟨.hbm, 43, rfl⟩
abbrev main_call0_v27 : Ref sig .tc := ⟨.hbm, 44, rfl⟩
abbrev main_call0_v28 : Ref sig .tc := ⟨.hbm, 45, rfl⟩
abbrev main_call0_v29 : Ref sig .tc := ⟨.hbm, 46, rfl⟩
abbrev main_call0_v30 : Ref sig .tc := ⟨.hbm, 47, rfl⟩
abbrev main_call0_v31 : Ref sig .tc := ⟨.hbm, 48, rfl⟩
abbrev main_call0_v32 : Ref sig .tc := ⟨.hbm, 49, rfl⟩
abbrev main_call0_c_6 : Ref sig .tc := ⟨.hbm, 50, rfl⟩
abbrev main_call0_v33 : Ref sig .tc := ⟨.hbm, 51, rfl⟩
abbrev main_call0_v34 : Ref sig .tc := ⟨.hbm, 52, rfl⟩
abbrev main_call0_c_7 : Ref sig .tc := ⟨.hbm, 53, rfl⟩
abbrev main_call0_v35 : Ref sig .tc := ⟨.hbm, 54, rfl⟩
abbrev main_call0_v36 : Ref sig .tc := ⟨.hbm, 55, rfl⟩
abbrev main_call0_v37 : Ref sig .tc := ⟨.hbm, 56, rfl⟩
abbrev main_call0_v38 : Ref sig .tc := ⟨.hbm, 57, rfl⟩
abbrev main_call0_v39 : Ref sig .tc := ⟨.hbm, 58, rfl⟩
abbrev main_call0_v40 : Ref sig .tc := ⟨.hbm, 59, rfl⟩
abbrev main_call0_v41 : Ref sig .tc := ⟨.hbm, 60, rfl⟩
abbrev main_call0_v42 : Ref sig .tc := ⟨.hbm, 61, rfl⟩
abbrev main_call0_cst_8 : Ref sig .tc := ⟨.hbm, 62, rfl⟩
abbrev main_call0_v43 : Ref sig .tc := ⟨.hbm, 63, rfl⟩
abbrev main_call0_v44 : Ref sig .tc := ⟨.hbm, 64, rfl⟩
abbrev main_call0_v45 : Ref sig .tc := ⟨.hbm, 65, rfl⟩
abbrev main_call0_v46 : Ref sig .tc := ⟨.hbm, 66, rfl⟩
abbrev main_call0_v47 : Ref sig .tc := ⟨.hbm, 67, rfl⟩
abbrev main_call0_c_9 : Ref sig .tc := ⟨.hbm, 68, rfl⟩
abbrev main_call0_v48 : Ref sig .tc := ⟨.hbm, 69, rfl⟩
abbrev main_call0_v49 : Ref sig .tc := ⟨.hbm, 70, rfl⟩
abbrev main_call0_c_10 : Ref sig .tc := ⟨.hbm, 71, rfl⟩
abbrev main_call0_v50 : Ref sig .tc := ⟨.hbm, 72, rfl⟩
abbrev main_call0_v51 : Ref sig .tc := ⟨.hbm, 73, rfl⟩
abbrev main_call0_v52 : Ref sig .tc := ⟨.hbm, 74, rfl⟩
abbrev main_call0_v53 : Ref sig .tc := ⟨.hbm, 75, rfl⟩
abbrev main_call0_v54 : Ref sig .tc := ⟨.hbm, 76, rfl⟩
abbrev main_call0_v55 : Ref sig .tc := ⟨.hbm, 77, rfl⟩
abbrev main_call0_v56 : Ref sig .tc := ⟨.hbm, 78, rfl⟩
abbrev main_call0_v57 : Ref sig .tc := ⟨.hbm, 79, rfl⟩
abbrev main_call0_cst_11 : Ref sig .tc := ⟨.hbm, 80, rfl⟩
abbrev main_call0_v58 : Ref sig .tc := ⟨.hbm, 81, rfl⟩
abbrev main_call0_v59 : Ref sig .tc := ⟨.hbm, 82, rfl⟩
abbrev main_call0_v60 : Ref sig .tc := ⟨.hbm, 83, rfl⟩
abbrev main_call0_v61 : Ref sig .tc := ⟨.hbm, 84, rfl⟩
abbrev main_call0_v62 : Ref sig .tc := ⟨.hbm, 85, rfl⟩
abbrev main_v0 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x512_S512x64_S5000x64_1_0_0_1_n_n_wf : DotDims.WF S5000x512 S512x64 S5000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v47) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S1600000 : Shape := ⟨1, ![1600000]⟩
abbrev S512x64 : Shape := ⟨2, ![512, 64]⟩
abbrev S64 : Shape := ⟨1, ![64]⟩
abbrev S64x64 : Shape := ⟨2, ![64, 64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 130
  | .vmem => 0
  | .smem => 0
  | _ => 0

abbrev hbmTy0_0 (i : Nat) : BufTy := match i % 128 with
  | 0 => ⟨S100000x512, .f32⟩
  | 1 => ⟨S2x1600000, .i32⟩
  | 2 => ⟨S1600000, .f32⟩
  | 3 => ⟨S512x64, .f32⟩
  | 4 => ⟨S64, .f32⟩
  | 5 => ⟨S64x64, .f32⟩
  | 6 => ⟨S64, .f32⟩
  | 7 => ⟨S1x1600000, .i32⟩
  | 8 => ⟨S1600000, .i32⟩
  | 9 => ⟨S1x1600000, .i32⟩
  | 10 => ⟨S1600000, .i32⟩
  | 11 => ⟨S100000, .i32⟩
  | 12 => ⟨S1700000, .i32⟩
  | 13 => ⟨S1700000, .i32⟩
  | 14 => ⟨S_, .f32⟩
  | 15 => ⟨S100000, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S100000x64, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x64, .f32⟩
  | 59 => ⟨S1700000x1, .f32⟩
  | 60 => ⟨S1700000x64, .f32⟩
  | 61 => ⟨S1700000x64, .f32⟩
  | 62 => ⟨S_, .f32⟩
  | 63 => ⟨S100000x64, .f32⟩
  | 64 => ⟨S1700000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000, .i32⟩
  | 73 => ⟨S1700000, .i32⟩
  | 74 => ⟨S1700000, .i32⟩
  | 75 => ⟨S_, .f32⟩
  | 76 => ⟨S100000, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S100000x64, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x64, .f32⟩
  | 120 => ⟨S1700000x1, .f32⟩
  | 121 => ⟨S1700000x64, .f32⟩
  | 122 => ⟨S1700000x64, .f32⟩
  | 123 => ⟨S_, .f32⟩
  | 124 => ⟨S100000x64, .f32⟩
  | 125 => ⟨S1700000x1, .i32⟩
  | 126 => ⟨S100000x64, .f32⟩
  | 127 => ⟨S1x64, .f32⟩
  | _ => ⟨S100000x512, .f32⟩

abbrev hbmTy0_1 (i : Nat) : BufTy := match i % 128 with
  | 0 => ⟨S100000x64, .f32⟩
  | 1 => ⟨S100000x64, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_17 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x512_S512x64_S100000x64_1_0_0_1_n_n_wf : DotDims.WF S100000x512 S512x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The kernel program's run with its result named.

  @main is five segments in a row: a stretch of host operations, the first region, a second stretch, the second region,
  a last stretch. The buffers' contents at each boundary are a fold from the launch memory (host stretches by their
  operations' results, a region by what its write-backs leave in its arrays), and every weakly fair execution ends with
  every buffer at the last boundary's contents. Read off here: the result buffer at those contents, and each argument
  array as launched.
-/
import proofs.«144796_j88476326297971_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.RunValue

end
-- ==== Proof.LibSsaLocal.lean ====
/-
  Straight lines of host operations that write every buffer once.

  A line of operations is run by folding each operation's result over a valuation of the buffers (`after`). When no
  later operation writes a buffer again, what the buffer holds at the end is what its own operation left there, and
  what an operand holds at the end is what it held when the operation read it. So at the end of such a line every
  buffer holds its operation's function of what the operands hold at the end — an equation per operation, each
  mentioning only that operation, however long the line and however often a value is used.

  `not_written` turns "no operation from position K on writes r" into a decidable statement about the list of the
  references the operations write, in order (each operation of Lib/StableHlo.lean writes exactly one).
-/
import Idealize.ShloMosaic.Lib.StableHlo.Run

noncomputable section

namespace Cert.LibSsaLocal

open Idealize.ShloMosaic Idealize.ShloMosaic.TcCoe Idealize.SL.Sem Idealize.ShloMosaic.StableHlo

variable {sig : RefSig} {τ : Topo} {Val : EltTy → Type}

/-- Running two lines one after the other. -/
theorem after_append (l₁ l₂ : List (HloOp τ sig Val)) (F : Valuation τ sig Val) :
    after (l₁ ++ l₂) F = after l₂ (after l₁ F) := by
  induction l₁ generalizing F with
  | nil => rfl
  | cons op l ih => rw [List.cons_append, after_cons, after_cons, ih]

/-- A line cut at any position. -/
theorem after_take_drop (ops : List (HloOp τ sig Val)) (K : Nat) (F : Valuation τ sig Val) :
    after ops F = after (ops.drop K) (after (ops.take K) F) := by
  rw [← after_append, List.take_append_drop]

/-- A buffer no operation writes from position `K` on ends at what it held after the first `K` operations. -/
theorem after_eq_take (ops : List (HloOp τ sig Val)) (K : Nat) (F : Valuation τ sig Val) (b : DevRef τ sig)
    (h : ∀ o ∈ ops.drop K, b ∉ o.writes) : after ops F b = after (ops.take K) F b := by
  rw [after_take_drop ops K F]
  exact after_of_forall_not_mem _ _ h

/-- A buffer written by the operation at position `K` and by none after it ends at that operation's result, computed
    from the valuation the first `K` operations leave. -/
theorem after_at (ops : List (HloOp τ sig Val)) (K : Nat) (op : HloOp τ sig Val)
    (hop : ops.drop K = op :: ops.drop (K + 1)) (F : Valuation τ sig Val) (y : DevRef τ sig)
    (hy : ∀ o ∈ ops.drop (K + 1), y ∉ o.writes) :
    after ops F y = op.result (after (ops.take K) F) y := by
  rw [after_take_drop ops K F, hop, after_cons]
  exact after_of_forall_not_mem _ _ hy

/-- When the operations write, in order, exactly the references `ws`, a reference absent from `ws` past position `K`
    is written by no operation from position `K` on. -/
theorem not_written (ops : List (HloOp τ sig Val)) (ws : List (Ref sig .tc))
    (hws : ops.map (fun o => o.writes) = ws.map (fun r => ({Proc.devRef .tc r} : Finset (DevRef τ sig))))
    (K : Nat) (r : Ref sig .tc) (h : r ∉ ws.drop K) : ∀ o ∈ ops.drop K, Proc.devRef .tc r ∉ o.writes := by
  intro o ho hmem
  have h1 : o.writes ∈ (ops.drop K).map (fun o => o.writes) := List.mem_map.mpr ⟨o, ho, rfl⟩
  rw [List.map_drop, hws, ← List.map_drop] at h1
  obtain ⟨r', hr', e⟩ := List.mem_map.mp h1
  rw [← e, Finset.mem_singleton] at hmem
  exact h (Proc.devRef_injective _ hmem ▸ hr')

end Cert.LibSsaLocal

end
-- ==== Proof.LibTRefStep.lean ====
/-
  One host operation spelt with typed references, read at its result through the reference's transport.

  An operation of a module-local function names its buffers by typed references: a buffer together with the fact that
  its type is the value's. The operation's function takes and gives contents at the VALUES' types, and is carried to the
  buffers' types and back along those facts. Reading the result buffer back through its own reference undoes the
  carrying: what is read is the function of the operands read through THEIR references, with no transport left in the
  equation. Proved for arbitrary types, by substituting the type facts away; nothing here looks at a particular buffer.
-/
import Idealize.ShloMosaic.Lib.StableHlo.Run

noncomputable section

namespace Cert.LibTRefStep

open Idealize.ShloMosaic Idealize.ShloMosaic.TcCoe Idealize.ShloMosaic.StableHlo

variable {sig : RefSig} {τ : Topo} {Val : EltTy → Type} {T Tx Ta Tb Tc Ty : BufTy}

/-- Carried to the buffer's type and back is where it started. -/
theorem ofBuf_toBuf (x : TRef sig T) (v : T.Contents Val) : x.ofBuf (x.toBuf v) = v := by
  obtain ⟨r, h, hd, hu⟩ := x
  subst h
  rfl

/-- A constant, read at its buffer. -/
theorem nullary_step (y : TRef sig Ty) (v : Ty.Contents Val) (G : Valuation τ sig Val) :
    y.ofBuf ((TRef.nullary (τ := τ) y v).result G (Proc.devRef .tc y.ref)) = v := by
  rw [nullary_result]
  exact ofBuf_toBuf y v

/-- A one-operand operation, read at its result: its function of the operand read through its reference. -/
theorem unary_step (x : TRef sig Tx) (y : TRef sig Ty) (f : Tx.Contents Val → Ty.Contents Val) (G : Valuation τ sig Val) :
    y.ofBuf ((TRef.unary (τ := τ) x y f).result G (Proc.devRef .tc y.ref)) = f (x.ofBuf (G (Proc.devRef .tc x.ref))) := by
  rw [unary_result]
  exact ofBuf_toBuf y _

/-- A two-operand operation, read at its result. -/
theorem binary_step (a : TRef sig Ta) (b : TRef sig Tb) (y : TRef sig Ty) (f : Ta.Contents Val → Tb.Contents Val → Ty.Contents Val)
    (G : Valuation τ sig Val) :
    y.ofBuf ((TRef.binary (τ := τ) a b y f).result G (Proc.devRef .tc y.ref))
      = f (a.ofBuf (G (Proc.devRef .tc a.ref))) (b.ofBuf (G (Proc.devRef .tc b.ref))) := by
  rw [binary_result]
  exact ofBuf_toBuf y _

/-- A three-operand operation, read at its result. -/
theorem ternary_step (c : TRef sig Tc) (a : TRef sig Ta) (b : TRef sig Tb) (y : TRef sig Ty)
    (f : Tc.Contents Val → Ta.Contents Val → Tb.Contents Val → Ty.Contents Val) (G : Valuation τ sig Val) :
    y.ofBuf ((TRef.ternary (τ := τ) c a b y f).result G (Proc.devRef .tc y.ref))
      = f (c.ofBuf (G (Proc.devRef .tc c.ref))) (a.ofBuf (G (Proc.devRef .tc a.ref))) (b.ofBuf (G (Proc.devRef .tc b.ref))) := by
  rw [ternary_result]
  exact ofBuf_toBuf y _

/-- A reshape, read at its result: the operand, read through its reference, laid out in the result's shape. -/
theorem reshape_step (x : TRef sig Tx) (y : TRef sig Ty) (he : Tx.elt = Ty.elt) (hn : Tx.shape.ShapeCasts Ty.shape)
    (G : Valuation τ sig Val) :
    y.ofBuf ((TRef.reshape (τ := τ) (Val := Val) x y he hn).result G (Proc.devRef .tc y.ref))
      = fun i => he ▸ shapeCast Ty.shape (x.ofBuf (G (Proc.devRef .tc x.ref))) hn i := by
  obtain ⟨rx, hx, hdx, hux⟩ := x
  obtain ⟨ry, hy, hdy, huy⟩ := y
  subst hx hy
  rw [reshape_result]
  rfl

end Cert.LibTRefStep

end
-- ==== Proof.Stretch0.lean ====
/-
  The stretch of host operations before the first region, one operation at a time.

  From the edge indices and the edge weights alone it builds the source list and the target list with a self-loop per
  node, the weights with a one per self-loop, every node's weighted in-degree (the weights added up at the targets), the
  degree's inverse square root where the degree is positive and zero elsewhere, and every edge's normalisation: the inverse
  root at its source times its weight times the inverse root at its target. The reference builds the same buffers by the
  same operations, so each buffer holds the reference's stage of the same arguments: the operation's function of its
  operands' stages IS the stage, by the stage's definition.
-/
import proofs.«144796_j88476326297971_2_alg».proof.Proof.Gen.KernelIdeal.Frame
import proofs.«144796_j88476326297971_2_alg».proof.Proof.Gen.ReferenceIdeal.Read
import proofs.«144796_j88476326297971_2_alg».proof.Proof.LibSsaLocal
import proofs.«144796_j88476326297971_2_alg».proof.Proof.LibTRefStep
import Idealize.ShloMosaic.Lib.StableHlo.Run

noncomputable section

namespace Cert.KernelIdeal.Stretch0

open Idealize.ShloMosaic Idealize.ShloMosaic.TcCoe Idealize.SL.Sem Idealize.ShloMosaic.StableHlo
open Cert.KernelIdeal Cert.KernelIdeal.Gen Cert.LibSsaLocal Cert.LibTRefStep
open Cert.ReferenceIdeal.Read

/-- The buffers this stretch writes, in the order of its operations: each is written once. -/
def ws : List (Ref sig .tc) := [main_call0_v0, main_call0_v1, main_call0_v2, main_call0_v3, main_call0_v4, main_call0_v5, main_call0_v6, main_call0_cst, main_call0_v7, main_call0_v8, main_call0_cst_0, main_call0_v9, main_call0_v10, main_call0_v11, main_call0_cst_1, main_call0_v12, main_call0_v13, main_call0_v14, main_call0_cst_2, main_call0_call0_v0, main_call0_call0_v1, main_call0_v15, main_call0_c, main_call0_v16, main_call0_v17, main_call0_c_3, main_call0_v18, main_call0_v19, main_call0_v20, main_call0_v21, main_call0_v22, main_call0_v23, main_call0_c_4, main_call0_v24, main_call0_v25, main_call0_c_5, main_call0_v26, main_call0_v27, main_call0_v28, main_call0_v29, main_call0_v30, main_call0_v31]

theorem hws : ((hostOps0 (F := Ideal)).map fun o => o.writes) = ws.map fun r => ({Proc.devRef .tc r} : Finset (DevRef τ sig)) := rfl

/-- A buffer absent from the written list past position K is written by no operation from position K on. -/
theorem nw (K : Nat) (r : Ref sig .tc) (h : r ∉ ws.drop K) : ∀ o ∈ (hostOps0 (F := Ideal)).drop K, Proc.devRef .tc r ∉ o.writes :=
  not_written _ ws hws K r h

variable (m : (ℓ : Loc nD τ sig) → Buf (Elt Ideal) ℓ) (ρ : Dev nD → PrngReg)

-- Every stage stands for its value here; only the stage being proved is opened, by its defining equation.
attribute [local irreducible] val_main_v0 val_main_v1 val_main_v2 val_main_v3 val_main_v4 val_main_v5 val_main_v6 val_main_cst val_main_v7 val_main_v8 val_main_cst_0 val_main_v9 val_main_v10 val_main_v11 val_main_cst_1 val_main_v12 val_main_v13 val_main_v14 val_main_cst_2 val_main_call0_v0 val_main_call0_v1 val_main_v15 val_main_c val_main_v16 val_main_v17 val_main_c_3 val_main_v18 val_main_v19 val_main_v20 val_main_v21 val_main_v22 val_main_v23 val_main_c_4 val_main_v24 val_main_v25 val_main_c_5 val_main_v26 val_main_v27 val_main_v28 val_main_v29 val_main_v30 val_main_v31

/-! ## The argument arrays are not written -/

theorem raw_arg0 (c : Dev nD) : StableHlo.after (hostOps0 (F := Ideal)) (W0 m ρ c) (Proc.devRef .tc main_arg0) = m ((c : Thread nD τ).loc main_arg0) :=
  StableHlo.after_of_forall_not_mem (b := (Proc.devRef .tc main_arg0)) _ _ (nw 0 main_arg0 (by decide))
theorem raw_arg1 (c : Dev nD) : StableHlo.after (hostOps0 (F := Ideal)) (W0 m ρ c) (Proc.devRef .tc main_arg1) = m ((c : Thread nD τ).loc main_arg1) :=
  StableHlo.after_of_forall_not_mem (b := (Proc.devRef .tc main_arg1)) _ _ (nw 0 main_arg1 (by decide))
theorem raw_arg2 (c : Dev nD) : StableHlo.after (hostOps0 (F := Ideal)) (W0 m ρ c) (Proc.devRef .tc main_arg2) = m ((c : Thread nD τ).loc main_arg2) :=
  StableHlo.after_of_forall_not_mem (b := (Proc.devRef .tc main_arg2)) _ _ (nw 0 main_arg2 (by decide))
theorem raw_arg3 (c : Dev nD) : StableHlo.after (hostOps0 (F := Ideal)) (W0 m ρ c) (Proc.devRef .tc main_arg3) = m ((c : Thread nD τ).loc main_arg3) :=
  StableHlo.after_of_forall_not_mem (b := (Proc.devRef .tc main_arg3)) _ _ (nw 0 main_arg3 (by decide))
theorem raw_arg4 (c : Dev nD) : StableHlo.after (hostOps0 (F := Ideal)) (W0 m ρ c) (Proc.devRef .tc main_arg4) = m ((c : Thread nD τ).loc main_arg4) :=
  StableHlo.after_of_forall_not_mem (b := (Proc.devRef .tc main_arg4)) _ _ (nw 0 main_arg4 (by decide))
theorem raw_arg5 (c : Dev nD) : StableHlo.after (hostOps0 (F := Ideal)) (W0 m ρ c) (Proc.devRef .tc main_arg5) = m ((c : Thread nD τ).loc main_arg5) :=
  StableHlo.after_of_forall_not_mem (b := (Proc.devRef .tc main_arg5)) _ _ (nw 0 main_arg5 (by decide))
theorem raw_arg6 (c : Dev nD) : StableHlo.after (hostOps0 (F := Ideal)) (W0 m ρ c) (Proc.devRef .tc main_arg6) = m ((c : Thread nD τ).loc main_arg6) :=
  StableHlo.after_of_forall_not_mem (b := (Proc.devRef .tc main_arg6)) _ _ (nw 0 main_arg6 (by decide))

/-! ## The operations, in order -/

theorem at_arg0 (c : Dev nD) : (TRef.of main_arg0 : TRef sig ⟨S100000x512, .f32⟩).ofBuf (StableHlo.after (hostOps0 (F := Ideal)) (W0 m ρ c) (Proc.devRef .tc main_arg0)) = m ((c : Thread nD τ).loc main_arg0) :=
  (congrArg (TRef.ofBuf (TRef.of main_arg0 : TRef sig ⟨S100000x512, .f32⟩)) (StableHlo.after_of_forall_not_mem (b := (Proc.devRef .tc main_arg0)) _ _ (nw 0 main_arg0 (by decide)))).trans (rfl)
theorem at_arg1 (c : Dev nD) : (TRef.of main_arg1 : TRef sig ⟨S2x1600000, .i32⟩).ofBuf (StableHlo.after (hostOps0 (F := Ideal)) (W0 m ρ c) (Proc.devRef .tc main_arg1)) = m ((c : Thread nD τ).loc main_arg1) :=
  (congrArg (TRef.ofBuf (TRef.of main_arg1 : TRef sig ⟨S2x1600000, .i32⟩)) (StableHlo.after_of_forall_not_mem (b := (Proc.devRef .tc main_arg1)) _ _ (nw 0 main_arg1 (by decide)))).trans (rfl)
theorem at_arg2 (c : Dev nD) : (TRef.of main_arg2 : TRef sig ⟨S1600000, .f32⟩).ofBuf (StableHlo.after (hostOps0 (F := Ideal)) (W0 m ρ c) (Proc.devRef .tc main_arg2)) = m ((c : Thread nD τ).loc main_arg2) :=
  (congrArg (TRef.ofBuf (TRef.of main_arg2 : TRef sig ⟨S1600000, .f32⟩)) (StableHlo.after_of_forall_not_mem (b := (Proc.devRef .tc main_arg2)) _ _ (nw 0 main_arg2 (by decide)))).trans (rfl)
theorem at_arg3 (c : Dev nD) : (TRef.of main_arg3 : TRef sig ⟨S512x64, .f32⟩).ofBuf (StableHlo.after (hostOps0 (F := Ideal)) (W0 m ρ c) (Proc.devRef .tc main_arg3)) = m ((c : Thread nD τ).loc main_arg3) :=
  (congrArg (TRef.ofBuf (TRef.of main_arg3 : TRef sig ⟨S512x64, .f32⟩)) (StableHlo.after_of_forall_not_mem (b := (Proc.devRef .tc main_arg3)) _ _ (nw 0 main_arg3 (by decide)))).trans (rfl)
theorem at_arg4 (c : Dev nD) : (TRef.of main_arg4 : TRef sig ⟨S64, .f32⟩).ofBuf (StableHlo.after (hostOps0 (F := Ideal)) (W0 m ρ c) (Proc.devRef .tc main_arg4)) = m ((c : Thread nD τ).loc main_arg4) :=
  (congrArg (TRef.ofBuf (TRef.of main_arg4 : TRef sig ⟨S64, .f32⟩)) (StableHlo.after_of_forall_not_mem (b := (Proc.devRef .tc main_arg4)) _ _ (nw 0 main_arg4 (by decide)))).trans (rfl)
theorem at_arg5 (c : Dev nD) : (TRef.of main_arg5 : TRef sig ⟨S64x64, .f32⟩).ofBuf (StableHlo.after (hostOps0 (F := Ideal)) (W0 m ρ c) (Proc.devRef .tc main_arg5)) = m ((c : Thread nD τ).loc main_arg5) :=
  (congrArg (TRef.ofBuf (TRef.of main_arg5 : TRef sig ⟨S64x64, .f32⟩)) (StableHlo.after_of_forall_not_mem (b := (Proc.devRef .tc main_arg5)) _ _ (nw 0 main_arg5 (by decide)))).trans (rfl)
theorem at_arg6 (c : Dev nD) : (TRef.of main_arg6 : TRef sig ⟨S64, .f32⟩).ofBuf (StableHlo.after (hostOps0 (F := Ideal)) (W0 m ρ c) (Proc.devRef .tc main_arg6)) = m ((c : Thread nD τ).loc main_arg6) :=
  (congrArg (TRef.ofBuf (TRef.of main_arg6 : TRef sig ⟨S64, .f32⟩)) (StableHlo.after_of_forall_not_mem (b := (Proc.devRef .tc main_arg6)) _ _ (nw 0 main_arg6 (by decide)))).trans (rfl)
theorem at_call0_v0 (c : Dev nD) : (TRef.of main_call0_v0 : TRef sig ⟨S1x1600000, .i32⟩).ofBuf (StableHlo.after (hostOps0 (F := Ideal)) (W0 m ρ c) (Proc.devRef .tc main_call0_v0)) = val_main_v0 (F := Ideal) (m ((c : Thread nD τ).loc main_arg1)) := by
  refine (congrArg (TRef.ofBuf (TRef.of main_call0_v0 : TRef sig ⟨S1x1600000, .i32⟩)) (after_at (hostOps0 (F := Ideal)) 0 _ rfl (W0 m ρ c) _ (nw 1 main_call0_v0 (by decide)))).trans ?_
  refine (unary_step (TRef.of main_arg1 : TRef sig ⟨S2x1600000, .i32⟩) (TRef.of main_call0_v0 : TRef sig ⟨S1x1600000, .i32⟩) _ _).trans ?_
  rw [← after_eq_take (hostOps0 (F := Ideal)) 0 (W0 m ρ c) (Proc.devRef .tc main_arg1) (nw 0 main_arg1 (by decide)), at_arg1 m ρ c]
  unfold val_main_v0
  rfl
theorem at_call0_v1 (c : Dev nD) : (TRef.of main_call0_v1 : TRef sig ⟨S1600000, .i32⟩).ofBuf (StableHlo.after (hostOps0 (F := Ideal)) (W0 m ρ c) (Proc.devRef .tc main_call0_v1)) = val_main_v1 (F := Ideal) (m ((c : Thread nD τ).loc main_arg1)) := by
  refine (congrArg (TRef.ofBuf (TRef.of main_call0_v1 : TRef sig ⟨S1600000, .i32⟩)) (after_at (hostOps0 (F := Ideal)) 1 _ rfl (W0 m ρ c) _ (nw 2 main_call0_v1 (by decide)))).trans ?_
  refine (reshape_step (TRef.of main_call0_v0 : TRef sig ⟨S1x1600000, .i32⟩) (TRef.of main_call0_v1 : TRef sig ⟨S1600000, .i32⟩) _ _ _).trans ?_
  rw [← after_eq_take (hostOps0 (F := Ideal)) 1 (W0 m ρ c) (Proc.devRef .tc main_call0_v0) (nw 1 main_call0_v0 (by decide)), at_call0_v0 m ρ c]
  unfold val_main_v1
  rfl
theorem at_call0_v2 (c : Dev nD) : (TRef.of main_call0_v2 : TRef sig ⟨S1x1600000, .i32⟩).ofBuf (StableHlo.after (hostOps0 (F := Ideal)) (W0 m ρ c) (Proc.devRef .tc main_call0_v2)) = val_main_v2 (F := Ideal) (m ((c : Thread nD τ).loc main_arg1)) := by
  refine (congrArg (TRef.ofBuf (TRef.of main_call0_v2 : TRef sig ⟨S1x1600000, .i32⟩)) (after_at (hostOps0 (F := Ideal)) 2 _ rfl (W0 m ρ c) _ (nw 3 main_call0_v2 (by decide)))).trans ?_
  refine (unary_step (TRef.of main_arg1 : TRef sig ⟨S2x1600000, .i32⟩) (TRef.of main_call0_v2 : TRef sig ⟨S1x1600000, .i32⟩) _ _).trans ?_
  rw [← after_eq_take (hostOps0 (F := Ideal)) 2 (W0 m ρ c) (Proc.devRef .tc main_arg1) (nw 2 main_arg1 (by decide)), at_arg1 m ρ c]
  unfold val_main_v2
  rfl
theorem at_call0_v3 (c : Dev nD) : (TRef.of main_call0_v3 : TRef sig ⟨S1600000, .i32⟩).ofBuf (StableHlo.after (hostOps0 (F := Ideal)) (W0 m ρ c) (Proc.devRef .tc main_call0_v3)) = val_main_v3 (F := Ideal) (m ((c : Thread nD τ).loc main_arg1)) := by
  refine (congrArg (TRef.ofBuf (TRef.of main_call0_v3 : TRef sig ⟨S1600000, .i32⟩)) (after_at (hostOps0 (F := Ideal)) 3 _ rfl (W0 m ρ c) _ (nw 4 main_call0_v3 (by decide)))).trans ?_
  refine (reshape_step (TRef.of main_call0_v2 : TRef sig ⟨S1x1600000, .i32⟩) (TRef.of main_call0_v3 : TRef sig ⟨S1600000, .i32⟩) _ _ _).trans ?_
  rw [← after_eq_take (hostOps0 (F := Ideal)) 3 (W0 m ρ c) (Proc.devRef .tc main_call0_v2) (nw 3 main_call0_v2 (by decide)), at_call0_v2 m ρ c]
  unfold val_main_v3
  rfl
theorem at_call0_v4 (c : Dev nD) : (TRef.of main_call0_v4 : TRef sig ⟨S100000, .i32⟩).ofBuf (StableHlo.after (hostOps0 (F := Ideal)) (W0 m ρ c) (Proc.devRef .tc main_call0_v4)) = val_main_v4 (F := Ideal) := by
  refine (congrArg (TRef.ofBuf (TRef.of main_call0_v4 : TRef sig ⟨S100000, .i32⟩)) (after_at (hostOps0 (F := Ideal)) 4 _ rfl (W0 m ρ c) _ (nw 5 main_call0_v4 (by decide)))).trans ?_
  refine (nullary_step (TRef.of main_call0_v4 : TRef sig ⟨S100000, .i32⟩) _ _).trans ?_
  unfold val_main_v4
  rfl
theorem at_call0_v5 (c : Dev nD) : (TRef.of main_call0_v5 : TRef sig ⟨S1700000, .i32⟩).ofBuf (StableHlo.after (hostOps0 (F := Ideal)) (W0 m ρ c) (Proc.devRef .tc main_call0_v5)) = val_main_v5 (F := Ideal) (m ((c : Thread nD τ).loc main_arg1)) := by
  refine (congrArg (TRef.ofBuf (TRef.of main_call0_v5 : TRef sig ⟨S1700000, .i32⟩)) (after_at (hostOps0 (F := Ideal)) 5 _ rfl (W0 m ρ c) _ (nw 6 main_call0_v5 (by decide)))).trans ?_
  refine (binary_step (TRef.of main_call0_v1 : TRef sig ⟨S1600000, .i32⟩) (TRef.of main_call0_v4 : TRef sig ⟨S100000, .i32⟩) (TRef.of main_call0_v5 : TRef sig ⟨S1700000, .i32⟩) _ _).trans ?_
  rw [← after_eq_take (hostOps0 (F := Ideal)) 5 (W0 m ρ c) (Proc.devRef .tc main_call0_v1) (nw 5 main_call0_v1 (by decide)), at_call0_v1 m ρ c]
  rw [← after_eq_take (hostOps0 (F := Ideal)) 5 (W0 m ρ c) (Proc.devRef .tc main_call0_v4) (nw 5 main_call0_v4 (by decide)), at_call0_v4 m ρ c]
  unfold val_main_v5
  rfl
theorem at_call0_v6 (c : Dev nD) : (TRef.of main_call0_v6 : TRef sig ⟨S1700000, .i32⟩).ofBuf (StableHlo.after (hostOps0 (F := Ideal)) (W0 m ρ c) (Proc.devRef .tc main_call0_v6)) = val_main_v6 (F := Ideal) (m ((c : Thread nD τ).loc main_arg1)) := by
  refine (congrArg (TRef.ofBuf (TRef.of main_call0_v6 : TRef sig ⟨S1700000, .i32⟩)) (after_at (hostOps0 (F := Ideal)) 6 _ rfl (W0 m ρ c) _ (nw 7 main_call0_v6 (by decide)))).trans ?_
  refine (binary_step (TRef.of main_call0_v3 : TRef sig ⟨S1600000, .i32⟩) (TRef.of main_call0_v4 : TRef sig ⟨S100000, .i32⟩) (TRef.of main_call0_v6 : TRef sig ⟨S1700000, .i32⟩) _ _).trans ?_
  rw [← after_eq_take (hostOps0 (F := Ideal)) 6 (W0 m ρ c) (Proc.devRef .tc main_call0_v3) (nw 6 main_call0_v3 (by decide)), at_call0_v3 m ρ c]
  rw [← after_eq_take (hostOps0 (F := Ideal)) 6 (W0 m ρ c) (Proc.devRef .tc main_call0_v4) (nw 6 main_call0_v4 (by decide)), at_call0_v4 m ρ c]
  unfold val_main_v6
  rfl
theorem at_call0_cst (c : Dev nD) : (TRef.of main_call0_cst : TRef sig ⟨S_, .f32⟩).ofBuf (StableHlo.after (hostOps0 (F := Ideal)) (W0 m ρ c) (Proc.devRef .tc main_call0_cst)) = val_main_cst (F := Ideal) := by
  refine (congrArg (TRef.ofBuf (TRef.of main_call0_cst : TRef sig ⟨S_, .f32⟩)) (after_at (hostOps0 (F := Ideal)) 7 _ rfl (W0 m ρ c) _ (nw 8 main_call0_cst (by decide)))).trans ?_
  refine (nullary_step (TRef.of main_call0_cst : TRef sig ⟨S_, .f32⟩) _ _).trans ?_
  unfold val_main_cst
  rfl
theorem at_call0_v7 (c : Dev nD) : (TRef.of main_call0_v7 : TRef sig ⟨S100000, .f32⟩).ofBuf (StableHlo.after (hostOps0 (F := Ideal)) (W0 m ρ c) (Proc.devRef .tc main_call0_v7)) = val_main_v7 (F := Ideal) := by
  refine (congrArg (TRef.ofBuf (TRef.of main_call0_v7 : TRef sig ⟨S100000, .f32⟩)) (after_at (hostOps0 (F := Ideal)) 8 _ rfl (W0 m ρ c) _ (nw 9 main_call0_v7 (by decide)))).trans ?_
  refine (unary_step (TRef.of main_call0_cst : TRef sig ⟨S_, .f32⟩) (TRef.of main_call0_v7 : TRef sig ⟨S100000, .f32⟩) _ _).trans ?_
  rw [← after_eq_take (hostOps0 (F := Ideal)) 8 (W0 m ρ c) (Proc.devRef .tc main_call0_cst) (nw 8 main_call0_cst (by decide)), at_call0_cst m ρ c]
  unfold val_main_v7
  rfl
theorem at_call0_v8 (c : Dev nD) : (TRef.of main_call0_v8 : TRef sig ⟨S1700000, .f32⟩).ofBuf (StableHlo.after (hostOps0 (F := Ideal)) (W0 m ρ c) (Proc.devRef .tc main_call0_v8)) = val_main_v8 (F := Ideal) (m ((c : Thread nD τ).loc main_arg2)) := by
  refine (congrArg (TRef.ofBuf (TRef.of main_call0_v8 : TRef sig ⟨S1700000, .f32⟩)) (after_at (hostOps0 (F := Ideal)) 9 _ rfl (W0 m ρ c) _ (nw 10 main_call0_v8 (by decide)))).trans ?_
  refine (binary_step (TRef.of main_arg2 : TRef sig ⟨S1600000, .f32⟩) (TRef.of main_call0_v7 : TRef sig ⟨S100000, .f32⟩) (TRef.of main_call0_v8 : TRef sig ⟨S1700000, .f32⟩) _ _).trans ?_
  rw [← after_eq_take (hostOps0 (F := Ideal)) 9 (W0 m ρ c) (Proc.devRef .tc main_arg2) (nw 9 main_arg2 (by decide)), at_arg2 m ρ c]
  rw [← after_eq_take (hostOps0 (F := Ideal)) 9 (W0 m ρ c) (Proc.devRef .tc main_call0_v7) (nw 9 main_call0_v7 (by decide)), at_call0_v7 m ρ c]
  unfold val_main_v8
  rfl
theorem at_call0_cst_0 (c : Dev nD) : (TRef.of main_call0_cst_0 : TRef sig ⟨S_, .f32⟩).ofBuf (StableHlo.after (hostOps0 (F := Ideal)) (W0 m ρ c) (Proc.devRef .tc main_call0_cst_0)) = val_main_cst_0 (F := Ideal) := by
  refine (congrArg (TRef.ofBuf (TRef.of main_call0_cst_0 : TRef sig ⟨S_, .f32⟩)) (after_at (hostOps0 (F := Ideal)) 10 _ rfl (W0 m ρ c) _ (nw 11 main_call0_cst_0 (by decide)))).trans ?_
  refine (nullary_step (TRef.of main_call0_cst_0 : TRef sig ⟨S_, .f32⟩) _ _).trans ?_
  unfold val_main_cst_0
  rfl
theorem at_call0_v9 (c : Dev nD) : (TRef.of main_call0_v9 : TRef sig ⟨S100000, .f32⟩).ofBuf (StableHlo.after (hostOps0 (F := Ideal)) (W0 m ρ c) (Proc.devRef .tc main_call0_v9)) = val_main_v9 (F := Ideal) := by
  refine (congrArg (TRef.ofBuf (TRef.of main_call0_v9 : TRef sig ⟨S100000, .f32⟩)) (after_at (hostOps0 (F := Ideal)) 11 _ rfl (W0 m ρ c) _ (nw 12 main_call0_v9 (by decide)))).trans ?_
  refine (unary_step (TRef.of main_call0_cst_0 : TRef sig ⟨S_, .f32⟩) (TRef.of main_call0_v9 : TRef sig ⟨S100000, .f32⟩) _ _).trans ?_
  rw [← after_eq_take (hostOps0 (F := Ideal)) 11 (W0 m ρ c) (Proc.devRef .tc main_call0_cst_0) (nw 11 main_call0_cst_0 (by decide)), at_call0_cst_0 m ρ c]
  unfold val_main_v9
  rfl
theorem at_call0_v10 (c : Dev nD) : (TRef.of main_call0_v10 : TRef sig ⟨S1700000x1, .i32⟩).ofBuf (StableHlo.after (hostOps0 (F := Ideal)) (W0 m ρ c) (Proc.devRef .tc main_call0_v10)) = val_main_v10 (F := Ideal) (m ((c : Thread nD τ).loc main_arg1)) := by
  refine (congrArg (TRef.ofBuf (TRef.of main_call0_v10 : TRef sig ⟨S1700000x1, .i32⟩)) (after_at (hostOps0 (F := Ideal)) 12 _ rfl (W0 m ρ c) _ (nw 13 main_call0_v10 (by decide)))).trans ?_
  refine (unary_step (TRef.of main_call0_v6 : TRef sig ⟨S1700000, .i32⟩) (TRef.of main_call0_v10 : TRef sig ⟨S1700000x1, .i32⟩) _ _).trans ?_
  rw [← after_eq_take (hostOps0 (F := Ideal)) 12 (W0 m ρ c) (Proc.devRef .tc main_call0_v6) (nw 12 main_call0_v6 (by decide)), at_call0_v6 m ρ c]
  unfold val_main_v10
  rfl
theorem at_call0_v11 (c : Dev nD) : (TRef.of main_call0_v11 : TRef sig ⟨S100000, .f32⟩).ofBuf (StableHlo.after (hostOps0 (F := Ideal)) (W0 m ρ c) (Proc.devRef .tc main_call0_v11)) = val_main_v11 (F := Ideal) (m ((c : Thread nD τ).loc main_arg1)) (m ((c : Thread nD τ).loc main_arg2)) := by
  refine (congrArg (TRef.ofBuf (TRef.of main_call0_v11 : TRef sig ⟨S100000, .f32⟩)) (after_at (hostOps0 (F := Ideal)) 13 _ rfl (W0 m ρ c) _ (nw 14 main_call0_v11 (by decide)))).trans ?_
  refine (ternary_step (TRef.of main_call0_v9 : TRef sig ⟨S100000, .f32⟩) (TRef.of main_call0_v10 : TRef sig ⟨S1700000x1, .i32⟩) (TRef.of main_call0_v8 : TRef sig ⟨S1700000, .f32⟩) (TRef.of main_call0_v11 : TRef sig ⟨S100000, .f32⟩) _ _).trans ?_
  rw [← after_eq_take (hostOps0 (F := Ideal)) 13 (W0 m ρ c) (Proc.devRef .tc main_call0_v9) (nw 13 main_call0_v9 (by decide)), at_call0_v9 m ρ c]
  rw [← after_eq_take (hostOps0 (F := Ideal)) 13 (W0 m ρ c) (Proc.devRef .tc main_call0_v10) (nw 13 main_call0_v10 (by decide)), at_call0_v10 m ρ c]
  rw [← after_eq_take (hostOps0 (F := Ideal)) 13 (W0 m ρ c) (Proc.devRef .tc main_call0_v8) (nw 13 main_call0_v8 (by decide)), at_call0_v8 m ρ c]
  unfold val_main_v11
  rfl
theorem at_call0_cst_1 (c : Dev nD) : (TRef.of main_call0_cst_1 : TRef sig ⟨S_, .f32⟩).ofBuf (StableHlo.after (hostOps0 (F := Ideal)) (W0 m ρ c) (Proc.devRef .tc main_call0_cst_1)) = val_main_cst_1 (F := Ideal) := by
  refine (congrArg (TRef.ofBuf (TRef.of main_call0_cst_1 : TRef sig ⟨S_, .f32⟩)) (after_at (hostOps0 (F := Ideal)) 14 _ rfl (W0 m ρ c) _ (nw 15 main_call0_cst_1 (by decide)))).trans ?_
  refine (nullary_step (TRef.of main_call0_cst_1 : TRef sig ⟨S_, .f32⟩) _ _).trans ?_
  unfold val_main_cst_1
  rfl
theorem at_call0_v12 (c : Dev nD) : (TRef.of main_call0_v12 : TRef sig ⟨S100000, .f32⟩).ofBuf (StableHlo.after (hostOps0 (F := Ideal)) (W0 m ρ c) (Proc.devRef .tc main_call0_v12)) = val_main_v12 (F := Ideal) := by
  refine (congrArg (TRef.ofBuf (TRef.of main_call0_v12 : TRef sig ⟨S100000, .f32⟩)) (after_at (hostOps0 (F := Ideal)) 15 _ rfl (W0 m ρ c) _ (nw 16 main_call0_v12 (by decide)))).trans ?_
  refine (unary_step (TRef.of main_call0_cst_1 : TRef sig ⟨S_, .f32⟩) (TRef.of main_call0_v12 : TRef sig ⟨S100000, .f32⟩) _ _).trans ?_
  rw [← after_eq_take (hostOps0 (F := Ideal)) 15 (W0 m ρ c) (Proc.devRef .tc main_call0_cst_1) (nw 15 main_call0_cst_1 (by decide)), at_call0_cst_1 m ρ c]
  unfold val_main_v12
  rfl
theorem at_call0_v13 (c : Dev nD) : (TRef.of main_call0_v13 : TRef sig ⟨S100000, .i1⟩).ofBuf (StableHlo.after (hostOps0 (F := Ideal)) (W0 m ρ c) (Proc.devRef .tc main_call0_v13)) = val_main_v13 (F := Ideal) (m ((c : Thread nD τ).loc main_arg1)) (m ((c : Thread nD τ).loc main_arg2)) := by
  refine (congrArg (TRef.ofBuf (TRef.of main_call0_v13 : TRef sig ⟨S100000, .i1⟩)) (after_at (hostOps0 (F := Ideal)) 16 _ rfl (W0 m ρ c) _ (nw 17 main_call0_v13 (by decide)))).trans ?_
  refine (binary_step (TRef.of main_call0_v11 : TRef sig ⟨S100000, .f32⟩) (TRef.of main_call0_v12 : TRef sig ⟨S100000, .f32⟩) (TRef.of main_call0_v13 : TRef sig ⟨S100000, .i1⟩) _ _).trans ?_
  rw [← after_eq_take (hostOps0 (F := Ideal)) 16 (W0 m ρ c) (Proc.devRef .tc main_call0_v11) (nw 16 main_call0_v11 (by decide)), at_call0_v11 m ρ c]
  rw [← after_eq_take (hostOps0 (F := Ideal)) 16 (W0 m ρ c) (Proc.devRef .tc main_call0_v12) (nw 16 main_call0_v12 (by decide)), at_call0_v12 m ρ c]
  unfold val_main_v13
  rfl
theorem at_call0_v14 (c : Dev nD) : (TRef.of main_call0_v14 : TRef sig ⟨S100000, .f32⟩).ofBuf (StableHlo.after (hostOps0 (F := Ideal)) (W0 m ρ c) (Proc.devRef .tc main_call0_v14)) = val_main_v14 (F := Ideal) (m ((c : Thread nD τ).loc main_arg1)) (m ((c : Thread nD τ).loc main_arg2)) := by
  refine (congrArg (TRef.ofBuf (TRef.of main_call0_v14 : TRef sig ⟨S100000, .f32⟩)) (after_at (hostOps0 (F := Ideal)) 17 _ rfl (W0 m ρ c) _ (nw 18 main_call0_v14 (by decide)))).trans ?_
  refine (unary_step (TRef.of main_call0_v11 : TRef sig ⟨S100000, .f32⟩) (TRef.of main_call0_v14 : TRef sig ⟨S100000, .f32⟩) _ _).trans ?_
  rw [← after_eq_take (hostOps0 (F := Ideal)) 17 (W0 m ρ c) (Proc.devRef .tc main_call0_v11) (nw 17 main_call0_v11 (by decide)), at_call0_v11 m ρ c]
  unfold val_main_v14
  rfl
theorem at_call0_cst_2 (c : Dev nD) : (TRef.of main_call0_cst_2 : TRef sig ⟨S_, .f32⟩).ofBuf (StableHlo.after (hostOps0 (F := Ideal)) (W0 m ρ c) (Proc.devRef .tc main_call0_cst_2)) = val_main_cst_2 (F := Ideal) := by
  refine (congrArg (TRef.ofBuf (TRef.of main_call0_cst_2 : TRef sig ⟨S_, .f32⟩)) (after_at (hostOps0 (F := Ideal)) 18 _ rfl (W0 m ρ c) _ (nw 19 main_call0_cst_2 (by decide)))).trans ?_
  refine (nullary_step (TRef.of main_call0_cst_2 : TRef sig ⟨S_, .f32⟩) _ _).trans ?_
  unfold val_main_cst_2
  rfl
theorem at_call0_call0_v0 (c : Dev nD) : (TRef.of main_call0_call0_v0 : TRef sig ⟨S_, .f32⟩).ofBuf (StableHlo.after (hostOps0 (F := Ideal)) (W0 m ρ c) (Proc.devRef .tc main_call0_call0_v0)) = val_main_call0_v0 (F := Ideal) := by
  refine (congrArg (TRef.ofBuf (TRef.of main_call0_call0_v0 : TRef sig ⟨S_, .f32⟩)) (after_at (hostOps0 (F := Ideal)) 19 _ rfl (W0 m ρ c) _ (nw 20 main_call0_call0_v0 (by decide)))).trans ?_
  refine (unary_step (TRef.of main_call0_cst_2 : TRef sig ⟨S_, .f32⟩) (TRef.of main_call0_call0_v0 : TRef sig ⟨S_, .f32⟩) _ _).trans ?_
  rw [← after_eq_take (hostOps0 (F := Ideal)) 19 (W0 m ρ c) (Proc.devRef .tc main_call0_cst_2) (nw 19 main_call0_cst_2 (by decide)), at_call0_cst_2 m ρ c]
  unfold val_main_call0_v0
  rfl
theorem at_call0_call0_v1 (c : Dev nD) : (TRef.of main_call0_call0_v1 : TRef sig ⟨S100000, .f32⟩).ofBuf (StableHlo.after (hostOps0 (F := Ideal)) (W0 m ρ c) (Proc.devRef .tc main_call0_call0_v1)) = val_main_call0_v1 (F := Ideal) := by
  refine (congrArg (TRef.ofBuf (TRef.of main_call0_call0_v1 : TRef sig ⟨S100000, .f32⟩)) (after_at (hostOps0 (F := Ideal)) 20 _ rfl (W0 m ρ c) _ (nw 21 main_call0_call0_v1 (by decide)))).trans ?_
  refine (unary_step (TRef.of main_call0_call0_v0 : TRef sig ⟨S_, .f32⟩) (TRef.of main_call0_call0_v1 : TRef sig ⟨S100000, .f32⟩) _ _).trans ?_
  rw [← after_eq_take (hostOps0 (F := Ideal)) 20 (W0 m ρ c) (Proc.devRef .tc main_call0_call0_v0) (nw 20 main_call0_call0_v0 (by decide)), at_call0_call0_v0 m ρ c]
  unfold val_main_call0_v1
  rfl
theorem at_call0_v15 (c : Dev nD) : (TRef.of main_call0_v15 : TRef sig ⟨S100000, .f32⟩).ofBuf (StableHlo.after (hostOps0 (F := Ideal)) (W0 m ρ c) (Proc.devRef .tc main_call0_v15)) = val_main_v15 (F := Ideal) (m ((c : Thread nD τ).loc main_arg1)) (m ((c : Thread nD τ).loc main_arg2)) := by
  refine (congrArg (TRef.ofBuf (TRef.of main_call0_v15 : TRef sig ⟨S100000, .f32⟩)) (after_at (hostOps0 (F := Ideal)) 21 _ rfl (W0 m ρ c) _ (nw 22 main_call0_v15 (by decide)))).trans ?_
  refine (ternary_step (TRef.of main_call0_v13 : TRef sig ⟨S100000, .i1⟩) (TRef.of main_call0_v14 : TRef sig ⟨S100000, .f32⟩) (TRef.of main_call0_call0_v1 : TRef sig ⟨S100000, .f32⟩) (TRef.of main_call0_v15 : TRef sig ⟨S100000, .f32⟩) _ _).trans ?_
  rw [← after_eq_take (hostOps0 (F := Ideal)) 21 (W0 m ρ c) (Proc.devRef .tc main_call0_v13) (nw 21 main_call0_v13 (by decide)), at_call0_v13 m ρ c]
  rw [← after_eq_take (hostOps0 (F := Ideal)) 21 (W0 m ρ c) (Proc.devRef .tc main_call0_v14) (nw 21 main_call0_v14 (by decide)), at_call0_v14 m ρ c]
  rw [← after_eq_take (hostOps0 (F := Ideal)) 21 (W0 m ρ c) (Proc.devRef .tc main_call0_call0_v1) (nw 21 main_call0_call0_v1 (by decide)), at_call0_call0_v1 m ρ c]
  unfold val_main_v15
  rfl
theorem at_call0_c (c : Dev nD) : (TRef.of main_call0_c : TRef sig ⟨S_, .i32⟩).ofBuf (StableHlo.after (hostOps0 (F := Ideal)) (W0 m ρ c) (Proc.devRef .tc main_call0_c)) = val_main_c (F := Ideal) := by
  refine (congrArg (TRef.ofBuf (TRef.of main_call0_c : TRef sig ⟨S_, .i32⟩)) (after_at (hostOps0 (F := Ideal)) 22 _ rfl (W0 m ρ c) _ (nw 23 main_call0_c (by decide)))).trans ?_
  refine (nullary_step (TRef.of main_call0_c : TRef sig ⟨S_, .i32⟩) _ _).trans ?_
  unfold val_main_c
  rfl
theorem at_call0_v16 (c : Dev nD) : (TRef.of main_call0_v16 : TRef sig ⟨S1700000, .i32⟩).ofBuf (StableHlo.after (hostOps0 (F := Ideal)) (W0 m ρ c) (Proc.devRef .tc main_call0_v16)) = val_main_v16 (F := Ideal) := by
  refine (congrArg (TRef.ofBuf (TRef.of main_call0_v16 : TRef sig ⟨S1700000, .i32⟩)) (after_at (hostOps0 (F := Ideal)) 23 _ rfl (W0 m ρ c) _ (nw 24 main_call0_v16 (by decide)))).trans ?_
  refine (unary_step (TRef.of main_call0_c : TRef sig ⟨S_, .i32⟩) (TRef.of main_call0_v16 : TRef sig ⟨S1700000, .i32⟩) _ _).trans ?_
  rw [← after_eq_take (hostOps0 (F := Ideal)) 23 (W0 m ρ c) (Proc.devRef .tc main_call0_c) (nw 23 main_call0_c (by decide)), at_call0_c m ρ c]
  unfold val_main_v16
  rfl
theorem at_call0_v17 (c : Dev nD) : (TRef.of main_call0_v17 : TRef sig ⟨S1700000, .i1⟩).ofBuf (StableHlo.after (hostOps0 (F := Ideal)) (W0 m ρ c) (Proc.devRef .tc main_call0_v17)) = val_main_v17 (F := Ideal) (m ((c : Thread nD τ).loc main_arg1)) := by
  refine (congrArg (TRef.ofBuf (TRef.of main_call0_v17 : TRef sig ⟨S1700000, .i1⟩)) (after_at (hostOps0 (F := Ideal)) 24 _ rfl (W0 m ρ c) _ (nw 25 main_call0_v17 (by decide)))).trans ?_
  refine (binary_step (TRef.of main_call0_v5 : TRef sig ⟨S1700000, .i32⟩) (TRef.of main_call0_v16 : TRef sig ⟨S1700000, .i32⟩) (TRef.of main_call0_v17 : TRef sig ⟨S1700000, .i1⟩) _ _).trans ?_
  rw [← after_eq_take (hostOps0 (F := Ideal)) 24 (W0 m ρ c) (Proc.devRef .tc main_call0_v5) (nw 24 main_call0_v5 (by decide)), at_call0_v5 m ρ c]
  rw [← after_eq_take (hostOps0 (F := Ideal)) 24 (W0 m ρ c) (Proc.devRef .tc main_call0_v16) (nw 24 main_call0_v16 (by decide)), at_call0_v16 m ρ c]
  unfold val_main_v17
  rfl
theorem at_call0_c_3 (c : Dev nD) : (TRef.of main_call0_c_3 : TRef sig ⟨S_, .i32⟩).ofBuf (StableHlo.after (hostOps0 (F := Ideal)) (W0 m ρ c) (Proc.devRef .tc main_call0_c_3)) = val_main_c_3 (F := Ideal) := by
  refine (congrArg (TRef.ofBuf (TRef.of main_call0_c_3 : TRef sig ⟨S_, .i32⟩)) (after_at (hostOps0 (F := Ideal)) 25 _ rfl (W0 m ρ c) _ (nw 26 main_call0_c_3 (by decide)))).trans ?_
  refine (nullary_step (TRef.of main_call0_c_3 : TRef sig ⟨S_, .i32⟩) _ _).trans ?_
  unfold val_main_c_3
  rfl
theorem at_call0_v18 (c : Dev nD) : (TRef.of main_call0_v18 : TRef sig ⟨S1700000, .i32⟩).ofBuf (StableHlo.after (hostOps0 (F := Ideal)) (W0 m ρ c) (Proc.devRef .tc main_call0_v18)) = val_main_v18 (F := Ideal) := by
  refine (congrArg (TRef.ofBuf (TRef.of main_call0_v18 : TRef sig ⟨S1700000, .i32⟩)) (after_at (hostOps0 (F := Ideal)) 26 _ rfl (W0 m ρ c) _ (nw 27 main_call0_v18 (by decide)))).trans ?_
  refine (unary_step (TRef.of main_call0_c_3 : TRef sig ⟨S_, .i32⟩) (TRef.of main_call0_v18 : TRef sig ⟨S1700000, .i32⟩) _ _).trans ?_
  rw [← after_eq_take (hostOps0 (F := Ideal)) 26 (W0 m ρ c) (Proc.devRef .tc main_call0_c_3) (nw 26 main_call0_c_3 (by decide)), at_call0_c_3 m ρ c]
  unfold val_main_v18
  rfl
theorem at_call0_v19 (c : Dev nD) : (TRef.of main_call0_v19 : TRef sig ⟨S1700000, .i32⟩).ofBuf (StableHlo.after (hostOps0 (F := Ideal)) (W0 m ρ c) (Proc.devRef .tc main_call0_v19)) = val_main_v19 (F := Ideal) (m ((c : Thread nD τ).loc main_arg1)) := by
  refine (congrArg (TRef.ofBuf (TRef.of main_call0_v19 : TRef sig ⟨S1700000, .i32⟩)) (after_at (hostOps0 (F := Ideal)) 27 _ rfl (W0 m ρ c) _ (nw 28 main_call0_v19 (by decide)))).trans ?_
  refine (binary_step (TRef.of main_call0_v5 : TRef sig ⟨S1700000, .i32⟩) (TRef.of main_call0_v18 : TRef sig ⟨S1700000, .i32⟩) (TRef.of main_call0_v19 : TRef sig ⟨S1700000, .i32⟩) _ _).trans ?_
  rw [← after_eq_take (hostOps0 (F := Ideal)) 27 (W0 m ρ c) (Proc.devRef .tc main_call0_v5) (nw 27 main_call0_v5 (by decide)), at_call0_v5 m ρ c]
  rw [← after_eq_take (hostOps0 (F := Ideal)) 27 (W0 m ρ c) (Proc.devRef .tc main_call0_v18) (nw 27 main_call0_v18 (by decide)), at_call0_v18 m ρ c]
  unfold val_main_v19
  rfl
theorem at_call0_v20 (c : Dev nD) : (TRef.of main_call0_v20 : TRef sig ⟨S1700000, .i32⟩).ofBuf (StableHlo.after (hostOps0 (F := Ideal)) (W0 m ρ c) (Proc.devRef .tc main_call0_v20)) = val_main_v20 (F := Ideal) (m ((c : Thread nD τ).loc main_arg1)) := by
  refine (congrArg (TRef.ofBuf (TRef.of main_call0_v20 : TRef sig ⟨S1700000, .i32⟩)) (after_at (hostOps0 (F := Ideal)) 28 _ rfl (W0 m ρ c) _ (nw 29 main_call0_v20 (by decide)))).trans ?_
  refine (ternary_step (TRef.of main_call0_v17 : TRef sig ⟨S1700000, .i1⟩) (TRef.of main_call0_v19 : TRef sig ⟨S1700000, .i32⟩) (TRef.of main_call0_v5 : TRef sig ⟨S1700000, .i32⟩) (TRef.of main_call0_v20 : TRef sig ⟨S1700000, .i32⟩) _ _).trans ?_
  rw [← after_eq_take (hostOps0 (F := Ideal)) 28 (W0 m ρ c) (Proc.devRef .tc main_call0_v17) (nw 28 main_call0_v17 (by decide)), at_call0_v17 m ρ c]
  rw [← after_eq_take (hostOps0 (F := Ideal)) 28 (W0 m ρ c) (Proc.devRef .tc main_call0_v19) (nw 28 main_call0_v19 (by decide)), at_call0_v19 m ρ c]
  rw [← after_eq_take (hostOps0 (F := Ideal)) 28 (W0 m ρ c) (Proc.devRef .tc main_call0_v5) (nw 28 main_call0_v5 (by decide)), at_call0_v5 m ρ c]
  unfold val_main_v20
  rfl
theorem at_call0_v21 (c : Dev nD) : (TRef.of main_call0_v21 : TRef sig ⟨S1700000x1, .i32⟩).ofBuf (StableHlo.after (hostOps0 (F := Ideal)) (W0 m ρ c) (Proc.devRef .tc main_call0_v21)) = val_main_v21 (F := Ideal) (m ((c : Thread nD τ).loc main_arg1)) := by
  refine (congrArg (TRef.ofBuf (TRef.of main_call0_v21 : TRef sig ⟨S1700000x1, .i32⟩)) (after_at (hostOps0 (F := Ideal)) 29 _ rfl (W0 m ρ c) _ (nw 30 main_call0_v21 (by decide)))).trans ?_
  refine (unary_step (TRef.of main_call0_v20 : TRef sig ⟨S1700000, .i32⟩) (TRef.of main_call0_v21 : TRef sig ⟨S1700000x1, .i32⟩) _ _).trans ?_
  rw [← after_eq_take (hostOps0 (F := Ideal)) 29 (W0 m ρ c) (Proc.devRef .tc main_call0_v20) (nw 29 main_call0_v20 (by decide)), at_call0_v20 m ρ c]
  unfold val_main_v21
  rfl
theorem at_call0_v22 (c : Dev nD) : (TRef.of main_call0_v22 : TRef sig ⟨S1700000, .f32⟩).ofBuf (StableHlo.after (hostOps0 (F := Ideal)) (W0 m ρ c) (Proc.devRef .tc main_call0_v22)) = val_main_v22 (F := Ideal) (m ((c : Thread nD τ).loc main_arg1)) (m ((c : Thread nD τ).loc main_arg2)) := by
  refine (congrArg (TRef.ofBuf (TRef.of main_call0_v22 : TRef sig ⟨S1700000, .f32⟩)) (after_at (hostOps0 (F := Ideal)) 30 _ rfl (W0 m ρ c) _ (nw 31 main_call0_v22 (by decide)))).trans ?_
  refine (binary_step (TRef.of main_call0_v15 : TRef sig ⟨S100000, .f32⟩) (TRef.of main_call0_v21 : TRef sig ⟨S1700000x1, .i32⟩) (TRef.of main_call0_v22 : TRef sig ⟨S1700000, .f32⟩) _ _).trans ?_
  rw [← after_eq_take (hostOps0 (F := Ideal)) 30 (W0 m ρ c) (Proc.devRef .tc main_call0_v15) (nw 30 main_call0_v15 (by decide)), at_call0_v15 m ρ c]
  rw [← after_eq_take (hostOps0 (F := Ideal)) 30 (W0 m ρ c) (Proc.devRef .tc main_call0_v21) (nw 30 main_call0_v21 (by decide)), at_call0_v21 m ρ c]
  unfold val_main_v22
  rfl
theorem at_call0_v23 (c : Dev nD) : (TRef.of main_call0_v23 : TRef sig ⟨S1700000, .f32⟩).ofBuf (StableHlo.after (hostOps0 (F := Ideal)) (W0 m ρ c) (Proc.devRef .tc main_call0_v23)) = val_main_v23 (F := Ideal) (m ((c : Thread nD τ).loc main_arg1)) (m ((c : Thread nD τ).loc main_arg2)) := by
  refine (congrArg (TRef.ofBuf (TRef.of main_call0_v23 : TRef sig ⟨S1700000, .f32⟩)) (after_at (hostOps0 (F := Ideal)) 31 _ rfl (W0 m ρ c) _ (nw 32 main_call0_v23 (by decide)))).trans ?_
  refine (binary_step (TRef.of main_call0_v22 : TRef sig ⟨S1700000, .f32⟩) (TRef.of main_call0_v8 : TRef sig ⟨S1700000, .f32⟩) (TRef.of main_call0_v23 : TRef sig ⟨S1700000, .f32⟩) _ _).trans ?_
  rw [← after_eq_take (hostOps0 (F := Ideal)) 31 (W0 m ρ c) (Proc.devRef .tc main_call0_v22) (nw 31 main_call0_v22 (by decide)), at_call0_v22 m ρ c]
  rw [← after_eq_take (hostOps0 (F := Ideal)) 31 (W0 m ρ c) (Proc.devRef .tc main_call0_v8) (nw 31 main_call0_v8 (by decide)), at_call0_v8 m ρ c]
  unfold val_main_v23
  rfl
theorem at_call0_c_4 (c : Dev nD) : (TRef.of main_call0_c_4 : TRef sig ⟨S_, .i32⟩).ofBuf (StableHlo.after (hostOps0 (F := Ideal)) (W0 m ρ c) (Proc.devRef .tc main_call0_c_4)) = val_main_c_4 (F := Ideal) := by
  refine (congrArg (TRef.ofBuf (TRef.of main_call0_c_4 : TRef sig ⟨S_, .i32⟩)) (after_at (hostOps0 (F := Ideal)) 32 _ rfl (W0 m ρ c) _ (nw 33 main_call0_c_4 (by decide)))).trans ?_
  refine (nullary_step (TRef.of main_call0_c_4 : TRef sig ⟨S_, .i32⟩) _ _).trans ?_
  unfold val_main_c_4
  rfl
theorem at_call0_v24 (c : Dev nD) : (TRef.of main_call0_v24 : TRef sig ⟨S1700000, .i32⟩).ofBuf (StableHlo.after (hostOps0 (F := Ideal)) (W0 m ρ c) (Proc.devRef .tc main_call0_v24)) = val_main_v24 (F := Ideal) := by
  refine (congrArg (TRef.ofBuf (TRef.of main_call0_v24 : TRef sig ⟨S1700000, .i32⟩)) (after_at (hostOps0 (F := Ideal)) 33 _ rfl (W0 m ρ c) _ (nw 34 main_call0_v24 (by decide)))).trans ?_
  refine (unary_step (TRef.of main_call0_c_4 : TRef sig ⟨S_, .i32⟩) (TRef.of main_call0_v24 : TRef sig ⟨S1700000, .i32⟩) _ _).trans ?_
  rw [← after_eq_take (hostOps0 (F := Ideal)) 33 (W0 m ρ c) (Proc.devRef .tc main_call0_c_4) (nw 33 main_call0_c_4 (by decide)), at_call0_c_4 m ρ c]
  unfold val_main_v24
  rfl
theorem at_call0_v25 (c : Dev nD) : (TRef.of main_call0_v25 : TRef sig ⟨S1700000, .i1⟩).ofBuf (StableHlo.after (hostOps0 (F := Ideal)) (W0 m ρ c) (Proc.devRef .tc main_call0_v25)) = val_main_v25 (F := Ideal) (m ((c : Thread nD τ).loc main_arg1)) := by
  refine (congrArg (TRef.ofBuf (TRef.of main_call0_v25 : TRef sig ⟨S1700000, .i1⟩)) (after_at (hostOps0 (F := Ideal)) 34 _ rfl (W0 m ρ c) _ (nw 35 main_call0_v25 (by decide)))).trans ?_
  refine (binary_step (TRef.of main_call0_v6 : TRef sig ⟨S1700000, .i32⟩) (TRef.of main_call0_v24 : TRef sig ⟨S1700000, .i32⟩) (TRef.of main_call0_v25 : TRef sig ⟨S1700000, .i1⟩) _ _).trans ?_
  rw [← after_eq_take (hostOps0 (F := Ideal)) 34 (W0 m ρ c) (Proc.devRef .tc main_call0_v6) (nw 34 main_call0_v6 (by decide)), at_call0_v6 m ρ c]
  rw [← after_eq_take (hostOps0 (F := Ideal)) 34 (W0 m ρ c) (Proc.devRef .tc main_call0_v24) (nw 34 main_call0_v24 (by decide)), at_call0_v24 m ρ c]
  unfold val_main_v25
  rfl
theorem at_call0_c_5 (c : Dev nD) : (TRef.of main_call0_c_5 : TRef sig ⟨S_, .i32⟩).ofBuf (StableHlo.after (hostOps0 (F := Ideal)) (W0 m ρ c) (Proc.devRef .tc main_call0_c_5)) = val_main_c_5 (F := Ideal) := by
  refine (congrArg (TRef.ofBuf (TRef.of main_call0_c_5 : TRef sig ⟨S_, .i32⟩)) (after_at (hostOps0 (F := Ideal)) 35 _ rfl (W0 m ρ c) _ (nw 36 main_call0_c_5 (by decide)))).trans ?_
  refine (nullary_step (TRef.of main_call0_c_5 : TRef sig ⟨S_, .i32⟩) _ _).trans ?_
  unfold val_main_c_5
  rfl
theorem at_call0_v26 (c : Dev nD) : (TRef.of main_call0_v26 : TRef sig ⟨S1700000, .i32⟩).ofBuf (StableHlo.after (hostOps0 (F := Ideal)) (W0 m ρ c) (Proc.devRef .tc main_call0_v26)) = val_main_v26 (F := Ideal) := by
  refine (congrArg (TRef.ofBuf (TRef.of main_call0_v26 : TRef sig ⟨S1700000, .i32⟩)) (after_at (hostOps0 (F := Ideal)) 36 _ rfl (W0 m ρ c) _ (nw 37 main_call0_v26 (by decide)))).trans ?_
  refine (unary_step (TRef.of main_call0_c_5 : TRef sig ⟨S_, .i32⟩) (TRef.of main_call0_v26 : TRef sig ⟨S1700000, .i32⟩) _ _).trans ?_
  rw [← after_eq_take (hostOps0 (F := Ideal)) 36 (W0 m ρ c) (Proc.devRef .tc main_call0_c_5) (nw 36 main_call0_c_5 (by decide)), at_call0_c_5 m ρ c]
  unfold val_main_v26
  rfl
theorem at_call0_v27 (c : Dev nD) : (TRef.of main_call0_v27 : TRef sig ⟨S1700000, .i32⟩).ofBuf (StableHlo.after (hostOps0 (F := Ideal)) (W0 m ρ c) (Proc.devRef .tc main_call0_v27)) = val_main_v27 (F := Ideal) (m ((c : Thread nD τ).loc main_arg1)) := by
  refine (congrArg (TRef.ofBuf (TRef.of main_call0_v27 : TRef sig ⟨S1700000, .i32⟩)) (after_at (hostOps0 (F := Ideal)) 37 _ rfl (W0 m ρ c) _ (nw 38 main_call0_v27 (by decide)))).trans ?_
  refine (binary_step (TRef.of main_call0_v6 : TRef sig ⟨S1700000, .i32⟩) (TRef.of main_call0_v26 : TRef sig ⟨S1700000, .i32⟩) (TRef.of main_call0_v27 : TRef sig ⟨S1700000, .i32⟩) _ _).trans ?_
  rw [← after_eq_take (hostOps0 (F := Ideal)) 37 (W0 m ρ c) (Proc.devRef .tc main_call0_v6) (nw 37 main_call0_v6 (by decide)), at_call0_v6 m ρ c]
  rw [← after_eq_take (hostOps0 (F := Ideal)) 37 (W0 m ρ c) (Proc.devRef .tc main_call0_v26) (nw 37 main_call0_v26 (by decide)), at_call0_v26 m ρ c]
  unfold val_main_v27
  rfl
theorem at_call0_v28 (c : Dev nD) : (TRef.of main_call0_v28 : TRef sig ⟨S1700000, .i32⟩).ofBuf (StableHlo.after (hostOps0 (F := Ideal)) (W0 m ρ c) (Proc.devRef .tc main_call0_v28)) = val_main_v28 (F := Ideal) (m ((c : Thread nD τ).loc main_arg1)) := by
  refine (congrArg (TRef.ofBuf (TRef.of main_call0_v28 : TRef sig ⟨S1700000, .i32⟩)) (after_at (hostOps0 (F := Ideal)) 38 _ rfl (W0 m ρ c) _ (nw 39 main_call0_v28 (by decide)))).trans ?_
  refine (ternary_step (TRef.of main_call0_v25 : TRef sig ⟨S1700000, .i1⟩) (TRef.of main_call0_v27 : TRef sig ⟨S1700000, .i32⟩) (TRef.of main_call0_v6 : TRef sig ⟨S1700000, .i32⟩) (TRef.of main_call0_v28 : TRef sig ⟨S1700000, .i32⟩) _ _).trans ?_
  rw [← after_eq_take (hostOps0 (F := Ideal)) 38 (W0 m ρ c) (Proc.devRef .tc main_call0_v25) (nw 38 main_call0_v25 (by decide)), at_call0_v25 m ρ c]
  rw [← after_eq_take (hostOps0 (F := Ideal)) 38 (W0 m ρ c) (Proc.devRef .tc main_call0_v27) (nw 38 main_call0_v27 (by decide)), at_call0_v27 m ρ c]
  rw [← after_eq_take (hostOps0 (F := Ideal)) 38 (W0 m ρ c) (Proc.devRef .tc main_call0_v6) (nw 38 main_call0_v6 (by decide)), at_call0_v6 m ρ c]
  unfold val_main_v28
  rfl
theorem at_call0_v29 (c : Dev nD) : (TRef.of main_call0_v29 : TRef sig ⟨S1700000x1, .i32⟩).ofBuf (StableHlo.after (hostOps0 (F := Ideal)) (W0 m ρ c) (Proc.devRef .tc main_call0_v29)) = val_main_v29 (F := Ideal) (m ((c : Thread nD τ).loc main_arg1)) := by
  refine (congrArg (TRef.ofBuf (TRef.of main_call0_v29 : TRef sig ⟨S1700000x1, .i32⟩)) (after_at (hostOps0 (F := Ideal)) 39 _ rfl (W0 m ρ c) _ (nw 40 main_call0_v29 (by decide)))).trans ?_
  refine (unary_step (TRef.of main_call0_v28 : TRef sig ⟨S1700000, .i32⟩) (TRef.of main_call0_v29 : TRef sig ⟨S1700000x1, .i32⟩) _ _).trans ?_
  rw [← after_eq_take (hostOps0 (F := Ideal)) 39 (W0 m ρ c) (Proc.devRef .tc main_call0_v28) (nw 39 main_call0_v28 (by decide)), at_call0_v28 m ρ c]
  unfold val_main_v29
  rfl
theorem at_call0_v30 (c : Dev nD) : (TRef.of main_call0_v30 : TRef sig ⟨S1700000, .f32⟩).ofBuf (StableHlo.after (hostOps0 (F := Ideal)) (W0 m ρ c) (Proc.devRef .tc main_call0_v30)) = val_main_v30 (F := Ideal) (m ((c : Thread nD τ).loc main_arg1)) (m ((c : Thread nD τ).loc main_arg2)) := by
  refine (congrArg (TRef.ofBuf (TRef.of main_call0_v30 : TRef sig ⟨S1700000, .f32⟩)) (after_at (hostOps0 (F := Ideal)) 40 _ rfl (W0 m ρ c) _ (nw 41 main_call0_v30 (by decide)))).trans ?_
  refine (binary_step (TRef.of main_call0_v15 : TRef sig ⟨S100000, .f32⟩) (TRef.of main_call0_v29 : TRef sig ⟨S1700000x1, .i32⟩) (TRef.of main_call0_v30 : TRef sig ⟨S1700000, .f32⟩) _ _).trans ?_
  rw [← after_eq_take (hostOps0 (F := Ideal)) 40 (W0 m ρ c) (Proc.devRef .tc main_call0_v15) (nw 40 main_call0_v15 (by decide)), at_call0_v15 m ρ c]
  rw [← after_eq_take (hostOps0 (F := Ideal)) 40 (W0 m ρ c) (Proc.devRef .tc main_call0_v29) (nw 40 main_call0_v29 (by decide)), at_call0_v29 m ρ c]
  unfold val_main_v30
  rfl
theorem at_call0_v31 (c : Dev nD) : (TRef.of main_call0_v31 : TRef sig ⟨S1700000, .f32⟩).ofBuf (StableHlo.after (hostOps0 (F := Ideal)) (W0 m ρ c) (Proc.devRef .tc main_call0_v31)) = val_main_v31 (F := Ideal) (m ((c : Thread nD τ).loc main_arg1)) (m ((c : Thread nD τ).loc main_arg2)) := by
  refine (congrArg (TRef.ofBuf (TRef.of main_call0_v31 : TRef sig ⟨S1700000, .f32⟩)) (after_at (hostOps0 (F := Ideal)) 41 _ rfl (W0 m ρ c) _ (nw 42 main_call0_v31 (by decide)))).trans ?_
  refine (binary_step (TRef.of main_call0_v23 : TRef sig ⟨S1700000, .f32⟩) (TRef.of main_call0_v30 : TRef sig ⟨S1700000, .f32⟩) (TRef.of main_call0_v31 : TRef sig ⟨S1700000, .f32⟩) _ _).trans ?_
  rw [← after_eq_take (hostOps0 (F := Ideal)) 41 (W0 m ρ c) (Proc.devRef .tc main_call0_v23) (nw 41 main_call0_v23 (by decide)), at_call0_v23 m ρ c]
  rw [← after_eq_take (hostOps0 (F := Ideal)) 41 (W0 m ρ c) (Proc.devRef .tc main_call0_v30) (nw 41 main_call0_v30 (by decide)), at_call0_v30 m ρ c]
  unfold val_main_v31
  rfl

end Cert.KernelIdeal.Stretch0

end
-- ==== Proof.LibMatmulRows.lean ====
/-
  A plain matrix product into a zero accumulator, read at a row and a column.

  For dimension numbers that contract the left operand's axis 1 against the right operand's axis 0, with no batch axis,
  the product of an [M, K] and a [K, N] array into the zero splat reads at (p, c) as the sum over a < K of
  l(p, a) · r(a, c): the product's sum over the contraction shape's indices, re-indexed through that shape's one axis.
-/
import Idealize.ShloMosaic.PureOps.Ideal.Laws
import Idealize.ShloMosaic.Lib.ValueIdx

noncomputable section

namespace Cert.LibMatmulRows

open Idealize.ShloMosaic Idealize.ShloMosaic.ValueIdx

/-- The product into the zero accumulator at (p, c), from the four facts that say which operand index the dimension
    numbers read at an output index and a contraction index. -/
theorem matmul_zero_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ a : Fin K, l (ix2 p a) * r (ix2 a c) := by
  show FloatOps.matmul d prec l r (constant ⟨2, ![M, N]⟩ .f32 0x00000000#32) (ix2 p c) = _
  rw [Ideal.matmul_constant_zero_apply, ← Equiv.sum_comp (contrEquiv1 d K hr hs).symm]
  refine Finset.sum_congr rfl fun a _ => ?_
  have hk := contrEquiv1_symm_val d K hr hs a
  have el : d.lhsIdx (ix2 p c) ((contrEquiv1 d K hr hs).symm a) = ix2 p a := funext fun x => Fin.ext (by
    match x with
    | ⟨0, _⟩ => exact hl0 _ _
    | ⟨1, _⟩ => exact (hl1 _ _).trans hk)
  have er : d.rhsIdx (ix2 p c) ((contrEquiv1 d K hr hs).symm a) = ix2 a c := funext fun x => Fin.ext (by
    match x with
    | ⟨0, _⟩ => exact (hr0 _ _).trans hk
    | ⟨1, _⟩ => exact hr1 _ _)
  rw [el, er]

end Cert.LibMatmulRows

end
-- ==== Proof.Payloads.lean ====
/-
  What the two kernel bodies store, read at a row and a column, on the extended reals.

  The first body stores the product of its [5000, 512] block of rows with the [512, 64] weights; the second adds the
  [1, 64] bias row to every row of its [5000, 64] block, takes the maximum with zero, and multiplies by the [64, 64]
  weights. Narrowing to bf16 is the identity on the extended reals, and a product into the zero accumulator is the
  plain sum over the contracted axis, so the entry at row p and column q is
      ∑ a, x(p, a) · w(a, q)                          for the first body, and
      ∑ a, max (x(p, a) + b(0, a)) 0 · w(a, q)        for the second.
  The zero of the maximum is kept as the word it is printed as: the reference's maximum is against the same word.
-/
import proofs.«144796_j88476326297971_2_alg».proof.Proof.Gen.KernelIdeal.Skeleton
import proofs.«144796_j88476326297971_2_alg».proof.Proof.LibMatmulRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen

/-! ## Which operand entries the two products' dimension numbers read -/

/-- The left operand is read at the output's row: axis 0 of the left operand is its free axis. -/
theorem d0_l0 (i : S5000x64.Idx) (q : dot_S5000x512_S512x64_S5000x64_1_0_0_1_n_n.contr.Idx) : (dot_S5000x512_S512x64_S5000x64_1_0_0_1_n_n.lhsIdx i q 0).val = (i 0).val := by
  unfold DotDims.lhsIdx
  rw [dif_neg (show ¬(0 : Fin S5000x512.rank) ∈ dot_S5000x512_S512x64_S5000x64_1_0_0_1_n_n.lhsBatch by decide), dif_pos (show (0 : Fin S5000x512.rank) ∈ dot_S5000x512_S512x64_S5000x64_1_0_0_1_n_n.lhsNonContracting by decide)]
  rfl
/-- and at the contraction index on its axis 1, the contracted one. -/
theorem d0_l1 (i : S5000x64.Idx) (q : dot_S5000x512_S512x64_S5000x64_1_0_0_1_n_n.contr.Idx) : (dot_S5000x512_S512x64_S5000x64_1_0_0_1_n_n.lhsIdx i q 1).val = (q ⟨0, by decide⟩).val :=
  dot_S5000x512_S512x64_S5000x64_1_0_0_1_n_n.lhsIdx_val_of_single rfl i q
/-- The right operand is read at the contraction index on its axis 0, the contracted one, -/
theorem d0_r0 (i : S5000x64.Idx) (q : dot_S5000x512_S512x64_S5000x64_1_0_0_1_n_n.contr.Idx) : (dot_S5000x512_S512x64_S5000x64_1_0_0_1_n_n.rhsIdx i q 0).val = (q ⟨0, by decide⟩).val :=
  dot_S5000x512_S512x64_S5000x64_1_0_0_1_n_n.rhsIdx_val_of_single rfl i q
/-- and at the output's column on its axis 1, its free axis. -/
theorem d0_r1 (i : S5000x64.Idx) (q : dot_S5000x512_S512x64_S5000x64_1_0_0_1_n_n.contr.Idx) : (dot_S5000x512_S512x64_S5000x64_1_0_0_1_n_n.rhsIdx i q 1).val = (i 1).val := by
  unfold DotDims.rhsIdx
  rw [dif_neg (show ¬(1 : Fin S512x64.rank) ∈ dot_S5000x512_S512x64_S5000x64_1_0_0_1_n_n.rhsBatch by decide), dif_pos (show (1 : Fin S512x64.rank) ∈ dot_S5000x512_S512x64_S5000x64_1_0_0_1_n_n.rhsNonContracting by decide)]
  rfl

/-- The left operand is read at the output's row: axis 0 of the left operand is its free axis. -/
theorem d1_l0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- and at the contraction index on its axis 1, the contracted one. -/
theorem d1_l1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
/-- The right operand is read at the contraction index on its axis 0, the contracted one, -/
theorem d1_r0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
/-- and at the output's column on its axis 1, its free axis. -/
theorem d1_r1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-! ## The stored values at (p, q) -/

/-- The first body's stored value at row p, column q: the sum over the 512 contracted positions. -/
theorem pay0_apply (x0 : Vec Ideal S5000x512 .f32) (x1 : Vec Ideal S512x64 .f32) (p : Fin 5000) (q : Fin 64) :
    k0_pay1 (F := Ideal) x0 x1 (ix2 p q) = ∑ a : Fin 512, x0 (ix2 p a) * x1 (ix2 a q) := by
  unfold k0_pay1
  refine (Cert.LibMatmulRows.matmul_zero_ix2 dot_S5000x512_S512x64_S5000x64_1_0_0_1_n_n rfl rfl d0_l0 d0_l1 d0_r0 d0_r1 none _ _ p q).trans ?_
  exact Finset.sum_congr rfl fun a _ => rfl

/-- The second body's stored value at row p, column q: the bias row added, the maximum with zero taken, then the sum
    over the 64 contracted positions. -/
theorem pay1_apply (x0 : Vec Ideal S5000x64 .f32) (x1 : Vec Ideal S1x64 .f32) (x2 : Vec Ideal S64x64 .f32) (p : Fin 5000) (q : Fin 64) :
    k1_pay1 (F := Ideal) x0 x1 x2 (ix2 p q)
      = ∑ a : Fin 64, max (x0 (ix2 p a) + x1 (ix2 (0 : Fin 1) a)) (FloatOps.ofBits (F := Ideal) .f32 0x00000000#32) * x2 (ix2 a q) := by
  unfold k1_pay1
  refine (Cert.LibMatmulRows.matmul_zero_ix2 dot_S5000x64_S64x64_S5000x64_1_0_0_1_n_n rfl rfl d1_l0 d1_l1 d1_r0 d1_r1 none _ _ p q).trans ?_
  refine Finset.sum_congr rfl fun a _ => ?_
  show max (shapeCast S5000x64 x0 shapeCasts_S5000x64_S5000x64 (ix2 p a)
        + broadcastTo S5000x64 (shapeCast S1x64 x1 shapeCasts_S1x64_S1x64) broadcasts_S1x64_S5000x64 (ix2 p a))
      (FloatOps.ofBits (F := Ideal) .f32 0x00000000#32) * x2 (ix2 a q) = _
  rw [shapeCast_self, shapeCast_self, broadcastTo_1b_ab_apply]

end Cert.KernelIdeal.Payload

end
-- ==== Proof.RegionArrays.lean ====
/-
  Each kernel region's result array, after the region, as one function of the arrays the region was entered with.

  Both regions walk 20 blocks of 5000 rows. At block t the first region multiplies rows 5000 t … 5000 t + 4999 of its
  [100000, 512] operand by the whole [512, 64] weights and writes rows 5000 t … 5000 t + 4999 of its result; the second
  does the same with a [100000, 64] operand, a [1, 64] bias row and [64, 64] weights. A row of a product depends on that
  row of the left operand only, so every block written is the block of ONE whole-array function:
      first  region:  (r, q) ↦ ∑ a, x(r, a) · w(a, q)
      second region:  (r, q) ↦ ∑ a, max (x(r, a) + b(0, a)) 0 · w(a, q)
  and the 20 blocks tile the 100000 rows, so the array ends holding that function everywhere.
-/
import proofs.«144796_j88476326297971_2_alg».proof.Proof.Gen.KernelIdeal.Frame
import proofs.«144796_j88476326297971_2_alg».proof.Proof.Payloads
import Idealize.ShloMosaic.Lib.Pipeline.Value
import Idealize.ShloMosaic.Lib.ValueIdx

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

/-! ## The two whole-array functions -/

/-- Rows times weights: entry (r, q) is the sum over the 512 contracted positions. -/
def rowsTimes (x : FVec Ideal S100000x512 .f32) (w : FVec Ideal S512x64 .f32) : FVec Ideal S100000x64 .f32 :=
  fun i => ∑ a : Fin 512, x (ix2 (i 0) a) * w (ix2 a (i 1))

/-- Rows plus the bias row, clamped below at zero, times weights: entry (r, q) is the sum over the 64 contracted positions. -/
def clampedRowsTimes (x : FVec Ideal S100000x64 .f32) (b : FVec Ideal S1x64 .f32) (w : FVec Ideal S64x64 .f32) : FVec Ideal S100000x64 .f32 :=
  fun i => ∑ a : Fin 64, max (x (ix2 (i 0) a) + b (ix2 (0 : Fin 1) a)) (FloatOps.ofBits (F := Ideal) .f32 0x00000000#32) * w (ix2 a (i 1))

/-- Rows times weights at row r, column q. -/
theorem rowsTimes_apply (x : FVec Ideal S100000x512 .f32) (w : FVec Ideal S512x64 .f32) (r : Fin 100000) (q : Fin 64) :
    rowsTimes x w (ix2 r q) = ∑ a : Fin 512, x (ix2 r a) * w (ix2 a q) := rfl

/-- The clamped rows times weights at row r, column q. -/
theorem clampedRowsTimes_apply (x : FVec Ideal S100000x64 .f32) (b : FVec Ideal S1x64 .f32) (w : FVec Ideal S64x64 .f32) (r : Fin 100000) (q : Fin 64) :
    clampedRowsTimes x b w (ix2 r q)
      = ∑ a : Fin 64, max (x (ix2 r a) + b (ix2 (0 : Fin 1) a)) (FloatOps.ofBits (F := Ideal) .f32 0x00000000#32) * w (ix2 a q) := rfl

theorem hz : (![0, 0] : Fin 2 → Nat) = fun _ => 0 := funext fun a => by fin_cases a <;> rfl

variable (V : (c : Dev nD) → (b : Ref sig .tc) → Buf (Elt Ideal) ((c : Thread nD τ).loc b))

/-! ## The first region -/

/-- Where the first region's blocks sit, decided over its 20 points: the row blocks of the operand and of the result
    move with the point, the weights stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The operand's block at point t, at row p: row 5000 t + p of the operand. -/
theorem xblk0_apply (c : Dev nD) (t : Fin cfg0.N) (p : Fin 5000) (a : Fin 512) (r : Fin 100000) (hr : r.val = t.val * 5000 + p.val) :
    (iblk0 V c 0 t : Vec Ideal S5000x512 .f32) (ix2 p a) = (V c main_arg0 : FVec Ideal S100000x512 .f32) (ix2 r a) := by
  obtain ⟨e0, e1, -⟩ := idx0 t
  unfold iblk0
  rw [View.read_apply]
  show V c main_arg0 _ = V c main_arg0 _
  refine congrArg (V c main_arg0) (funext fun d => Fin.ext ?_)
  match d with
  | ⟨0, _⟩ => show win0_0.index t (0 : Fin 2) * 5000 + 1 * p.val = r.val; rw [e0, hr]; omega
  | ⟨1, _⟩ => show win0_0.index t (1 : Fin 2) * 512 + 1 * a.val = a.val; rw [e1]; omega

/-- The weights' block at every point is the weights. -/
theorem wblk0_apply (c : Dev nD) (t : Fin cfg0.N) (a : Fin 512) (q : Fin 64) :
    (iblk0 V c 1 t : Vec Ideal S512x64 .f32) (ix2 a q) = (V c main_arg3 : FVec Ideal S512x64 .f32) (ix2 a q) := by
  obtain ⟨-, -, e0, e1, -⟩ := idx0 t
  unfold iblk0
  rw [View.read_apply]
  show V c main_arg3 _ = V c main_arg3 _
  refine congrArg (V c main_arg3) (funext fun d => Fin.ext ?_)
  match d with
  | ⟨0, _⟩ => show win0_1.index t (0 : Fin 2) * 512 + 1 * a.val = a.val; rw [e0]; omega
  | ⟨1, _⟩ => show win0_1.index t (1 : Fin 2) * 64 + 1 * q.val = q.val; rw [e1]; omega

/-- What point t writes back is block t of rows times weights. -/
theorem flushed0_eq (c : Dev nD) (t : Fin cfg0.N) :
    (dat0 V c).flushed 2 t = ((cfg0.win 2).blk t).view.read (Elt Ideal) (rowsTimes (V c main_arg0) (V c main_arg3)) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x64) hz]
  funext j
  obtain ⟨p, q, rfl⟩ : ∃ (p : Fin 5000) (q : Fin 64), j = ix2 p q := ⟨j 0, j 1, eq_ix2 j⟩
  obtain ⟨-, -, -, -, e0, e1⟩ := idx0 t
  have hN : cfg0.N = 20 := N_0
  have ht : t.val < 20 := hN ▸ t.isLt
  have hemb : ((cfg0.win 2).blk t).view.emb (ix2 p q) = (ix2 (⟨t.val * 5000 + p.val, by omega⟩ : Fin 100000) q : S100000x64.Idx) :=
    funext fun d => Fin.ext (by
      match d with
      | ⟨0, _⟩ => show win0_2.index t (0 : Fin 2) * 5000 + 1 * p.val = t.val * 5000 + p.val; rw [e0]; omega
      | ⟨1, _⟩ => show win0_2.index t (1 : Fin 2) * 64 + 1 * q.val = q.val; rw [e1]; omega)
  show k0_pay1 (F := Ideal) (iblk0 V c 0 t) (iblk0 V c 1 t) (ix2 p q)
      = rowsTimes (V c main_arg0) (V c main_arg3) (((cfg0.win 2).blk t).view.emb (ix2 p q))
  rw [hemb]
  refine ((Payload.pay0_apply (iblk0 V c 0 t) (iblk0 V c 1 t) p q).trans ?_).trans
    (rowsTimes_apply (V c main_arg0) (V c main_arg3) _ q).symm
  exact Finset.sum_congr rfl fun a _ => congrArg₂ (· * ·) (xblk0_apply V c t p a _ rfl) (wblk0_apply V c t a q)

/-- An index of the result is in point t's block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_call0_v32).slice (win0_2.rect t)).set ↔ _
  rw [View.set_slice_whole, Rect.mem_set_unit]
  exact Iff.rfl

/-- Row r is written by point r / 5000. -/
theorem cover0 (i : S100000x64.Idx) : ∃ t : Fin cfg0.N, (cfg0.win 2).flush t = true ∧ i ∈ ((cfg0.win 2).blk t).view.set := by
  have hN : cfg0.N = 20 := N_0
  have h0 : (i 0).val < 100000 := (i 0).isLt
  have h1 : (i 1).val < 64 := (i 1).isLt
  refine ⟨⟨(i 0).val / 5000, by rw [hN]; omega⟩, flush0_2 _, ?_⟩
  rw [mem_blk0]
  obtain ⟨-, -, -, -, e0, e1⟩ := idx0 ⟨(i 0).val / 5000, by rw [hN]; omega⟩
  intro a
  match a with
  | ⟨0, _⟩ => show win0_2.index _ (0 : Fin 2) * 5000 ≤ (i 0).val ∧ (i 0).val < win0_2.index _ (0 : Fin 2) * 5000 + 5000; rw [e0]; show (i 0).val / 5000 * 5000 ≤ (i 0).val ∧ (i 0).val < (i 0).val / 5000 * 5000 + 5000; omega
  | ⟨1, _⟩ => show win0_2.index _ (1 : Fin 2) * 64 ≤ (i 1).val ∧ (i 1).val < win0_2.index _ (1 : Fin 2) * 64 + 64; rw [e1]; omega

/-- THE FIRST REGION'S RESULT: rows times weights of the arrays the region was entered with. -/
theorem final0 (c : Dev nD) : (dat0 V c).arrAt 2 cfg0.N = rowsTimes (V c main_arg0) (V c main_arg3) :=
  (dat0 V c).arrAt_eq_of_cover 2 (rowsTimes (V c main_arg0) (V c main_arg3)) (fun t _ => flushed0_eq V c t) cover0

/-! ## The second region -/

/-- Where the second region's blocks sit, decided over its 20 points: the row blocks of the operand and of the result
    move with the point; the bias row and the weights stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The operand's block at point t, at row p: row 5000 t + p of the operand. -/
theorem xblk1_apply (c : Dev nD) (t : Fin cfg1.N) (p : Fin 5000) (a : Fin 64) (r : Fin 100000) (hr : r.val = t.val * 5000 + p.val) :
    (iblk1 V c 0 t : Vec Ideal S5000x64 .f32) (ix2 p a) = (V c main_call0_v45 : FVec Ideal S100000x64 .f32) (ix2 r a) := by
  obtain ⟨e0, e1, -⟩ := idx1 t
  unfold iblk1
  rw [View.read_apply]
  show V c main_call0_v45 _ = V c main_call0_v45 _
  refine congrArg (V c main_call0_v45) (funext fun d => Fin.ext ?_)
  match d with
  | ⟨0, _⟩ => show win1_0.index t (0 : Fin 2) * 5000 + 1 * p.val = r.val; rw [e0, hr]; omega
  | ⟨1, _⟩ => show win1_0.index t (1 : Fin 2) * 64 + 1 * a.val = a.val; rw [e1]; omega

/-- The bias row's block at every point is the bias row. -/
theorem bblk1_apply (c : Dev nD) (t : Fin cfg1.N) (a : Fin 64) :
    (iblk1 V c 1 t : Vec Ideal S1x64 .f32) (ix2 (0 : Fin 1) a) = (V c main_call0_v46 : FVec Ideal S1x64 .f32) (ix2 (0 : Fin 1) a) := by
  obtain ⟨-, -, e0, e1, -⟩ := idx1 t
  unfold iblk1
  rw [View.read_apply]
  show V c main_call0_v46 _ = V c main_call0_v46 _
  refine congrArg (V c main_call0_v46) (funext fun d => Fin.ext ?_)
  match d with
  | ⟨0, _⟩ => show win1_1.index t (0 : Fin 2) * 1 + 1 * (0 : Fin 1).val = (0 : Fin 1).val; rw [e0]; rfl
  | ⟨1, _⟩ => show win1_1.index t (1 : Fin 2) * 64 + 1 * a.val = a.val; rw [e1]; omega

/-- The weights' block at every point is the weights. -/
theorem wblk1_apply (c : Dev nD) (t : Fin cfg1.N) (a : Fin 64) (q : Fin 64) :
    (iblk1 V c 2 t : Vec Ideal S64x64 .f32) (ix2 a q) = (V c main_arg5 : FVec Ideal S64x64 .f32) (ix2 a q) := by
  obtain ⟨-, -, -, -, e0, e1, -⟩ := idx1 t
  unfold iblk1
  rw [View.read_apply]
  show V c main_arg5 _ = V c main_arg5 _
  refine congrArg (V c main_arg5) (funext fun d => Fin.ext ?_)
  match d with
  | ⟨0, _⟩ => show win1_2.index t (0 : Fin 2) * 64 + 1 * a.val = a.val; rw [e0]; omega
  | ⟨1, _⟩ => show win1_2.index t (1 : Fin 2) * 64 + 1 * q.val = q.val; rw [e1]; omega

/-- What point t writes back is block t of the clamped rows times weights. -/
theorem flushed1_eq (c : Dev nD) (t : Fin cfg1.N) :
    (dat1 V c).flushed 3 t = ((cfg1.win 3).blk t).view.read (Elt Ideal)
      (clampedRowsTimes (V c main_call0_v45) (V c main_call0_v46) (V c main_arg5)) := by
  show (cfg1.win 3).cut (grid1.coords t) ((dat1 V c).after 3 t) = _
  rw [after1_3]
  unfold out1_3
  rw [View.canon_unit_zero hz]
  simp only [View.ld_unit_zero (S := S5000x64) hz, View.ld_unit_zero (S := S1x64) hz, View.ld_unit_zero (S := S64x64) hz]
  funext j
  obtain ⟨p, q, rfl⟩ : ∃ (p : Fin 5000) (q : Fin 64), j = ix2 p q := ⟨j 0, j 1, eq_ix2 j⟩
  obtain ⟨-, -, -, -, -, -, e0, e1⟩ := idx1 t
  have hN : cfg1.N = 20 := N_1
  have ht : t.val < 20 := hN ▸ t.isLt
  have hemb : ((cfg1.win 3).blk t).view.emb (ix2 p q) = (ix2 (⟨t.val * 5000 + p.val, by omega⟩ : Fin 100000) q : S100000x64.Idx) :=
    funext fun d => Fin.ext (by
      match d with
      | ⟨0, _⟩ => show win1_3.index t (0 : Fin 2) * 5000 + 1 * p.val = t.val * 5000 + p.val; rw [e0]; omega
      | ⟨1, _⟩ => show win1_3.index t (1 : Fin 2) * 64 + 1 * q.val = q.val; rw [e1]; omega)
  show k1_pay1 (F := Ideal) (iblk1 V c 0 t) (iblk1 V c 1 t) (iblk1 V c 2 t) (ix2 p q)
      = clampedRowsTimes (V c main_call0_v45) (V c main_call0_v46) (V c main_arg5) (((cfg1.win 3).blk t).view.emb (ix2 p q))
  rw [hemb]
  refine ((Payload.pay1_apply (iblk1 V c 0 t) (iblk1 V c 1 t) (iblk1 V c 2 t) p q).trans ?_).trans
    (clampedRowsTimes_apply (V c main_call0_v45) (V c main_call0_v46) (V c main_arg5) _ q).symm
  exact Finset.sum_congr rfl fun a _ => congrArg₂ (· * ·)
    (congrArg₂ (fun u v => max (u + v) (FloatOps.ofBits (F := Ideal) .f32 0x00000000#32)) (xblk1_apply V c t p a _ rfl) (bblk1_apply V c t a))
    (wblk1_apply V c t a q)

/-- An index of the result is in point t's block iff each coordinate is in the block's range on its axis. -/
theorem mem_blk1 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_call0_v47).slice (win1_3.rect t)).set ↔ _
  rw [View.set_slice_whole, Rect.mem_set_unit]
  exact Iff.rfl

/-- Row r is written by point r / 5000. -/
theorem cover1 (i : S100000x64.Idx) : ∃ t : Fin cfg1.N, (cfg1.win 3).flush t = true ∧ i ∈ ((cfg1.win 3).blk t).view.set := by
  have hN : cfg1.N = 20 := N_1
  have h0 : (i 0).val < 100000 := (i 0).isLt
  have h1 : (i 1).val < 64 := (i 1).isLt
  refine ⟨⟨(i 0).val / 5000, by rw [hN]; omega⟩, flush1_3 _, ?_⟩
  rw [mem_blk1]
  obtain ⟨-, -, -, -, -, -, e0, e1⟩ := idx1 ⟨(i 0).val / 5000, by rw [hN]; omega⟩
  intro a
  match a with
  | ⟨0, _⟩ => show win1_3.index _ (0 : Fin 2) * 5000 ≤ (i 0).val ∧ (i 0).val < win1_3.index _ (0 : Fin 2) * 5000 + 5000; rw [e0]; show (i 0).val / 5000 * 5000 ≤ (i 0).val ∧ (i 0).val < (i 0).val / 5000 * 5000 + 5000; omega
  | ⟨1, _⟩ => show win1_3.index _ (1 : Fin 2) * 64 ≤ (i 1).val ∧ (i 1).val < win1_3.index _ (1 : Fin 2) * 64 + 64; rw [e1]; omega

/-- THE SECOND REGION'S RESULT: the clamped rows times weights of the arrays the region was entered with. -/
theorem final1 (c : Dev nD) : (dat1 V c).arrAt 3 cfg1.N = clampedRowsTimes (V c main_call0_v45) (V c main_call0_v46) (V c main_arg5) :=
  (dat1 V c).arrAt_eq_of_cover 3 (clampedRowsTimes (V c main_call0_v45) (V c main_call0_v46) (V c main_arg5)) (fun t _ => flushed1_eq V c t) cover1

end Cert.KernelIdeal.RegionValue

end
-- ==== Proof.RefBridge.lean ====
/-
  The two region functions are the reference's two matrix products.

  The reference multiplies x by the first weights with the host's product, whose entry (r, q) on the extended reals is
  the sum over the contracted positions of x(r, a) · w(a, q): the first region's function. Its second product has as left
  operand the first layer's aggregate plus the bias broadcast to every row, clamped below at zero; entry (r, a) of that
  operand is max (agg(r, a) + b(a)) 0, so the product's entry (r, q) is the second region's function of the aggregate,
  of the bias laid out as one row, and of the second weights.
-/
import proofs.«144796_j88476326297971_2_alg».proof.Proof.RegionArrays
import proofs.«144796_j88476326297971_2_alg».proof.Proof.Gen.ReferenceIdeal.Read
import Idealize.ShloMosaic.Lib.ValueLayout

noncomputable section

namespace Cert.Bridge

open Idealize.ShloMosaic Idealize.ShloMosaic.ValueIdx
open Cert.ReferenceIdeal Cert.ReferenceIdeal.Read
open Cert.KernelIdeal.RegionValue (rowsTimes clampedRowsTimes rowsTimes_apply clampedRowsTimes_apply)

/-- Rows times weights is the reference's first product. -/
theorem rowsTimes_ref (x0 : FVec Ideal S100000x512 .f32) (x3 : FVec Ideal S512x64 .f32) :
    rowsTimes x0 x3 = val_main_v32 (F := Ideal) x0 x3 := by
  funext i
  obtain ⟨r, q, rfl⟩ : ∃ (r : Fin 100000) (q : Fin 64), i = ix2 r q := ⟨i 0, i 1, eq_ix2 i⟩
  rw [val_main_v32_apply]
  refine (rowsTimes_apply x0 x3 r q).trans (Finset.sum_congr rfl fun k _ => congrArg₂ (· * ·) ?_ ?_)
  exacts [
    congrArg x0 (funext fun d => by match d with | ⟨0, _⟩ => rfl | ⟨1, _⟩ => rfl),
    congrArg x3 (funext fun d => by match d with | ⟨0, _⟩ => rfl | ⟨1, _⟩ => rfl)]

/-- The clamped rows times weights, of the first layer's aggregate and the bias laid out as one row, is the reference's
    second product. -/
theorem clamped_ref (x0 : FVec Ideal S100000x512 .f32) (x1 : IVec S2x1600000 32) (x2 : FVec Ideal S1600000 .f32)
    (x3 : FVec Ideal S512x64 .f32) (x4 : FVec Ideal S64 .f32) (x5 : FVec Ideal S64x64 .f32) (h : S64.ShapeCasts S1x64) :
    clampedRowsTimes (val_main_v45 (F := Ideal) x0 x1 x2 x3) (shapeCast S1x64 x4 h) x5
      = val_main_v78 (F := Ideal) x0 x1 x2 x3 x4 x5 := by
  funext i
  obtain ⟨r, q, rfl⟩ : ∃ (r : Fin 100000) (q : Fin 64), i = ix2 r q := ⟨i 0, i 1, eq_ix2 i⟩
  rw [val_main_v78_apply]
  refine (clampedRowsTimes_apply _ _ _ r q).trans (Finset.sum_congr rfl fun k _ => ?_)
  have e1 : lidx_main_v78 (ix2 r q) k = ix2 r k := funext fun d => by match d with | ⟨0, _⟩ => rfl | ⟨1, _⟩ => rfl
  have e2 : ridx_main_v78 (ix2 r q) k = ix2 k q := funext fun d => by match d with | ⟨0, _⟩ => rfl | ⟨1, _⟩ => rfl
  have e3 : idx_main_v46 (idx_main_v47 (ix2 r k)) = ix1 k := funext fun d => by match d with | ⟨0, _⟩ => rfl
  rw [e1, e2, val_main_v49_apply, val_main_v48_apply, val_main_v47_apply, val_main_v46_apply, val_main_call1_v0_apply,
    val_main_call1_cst_apply, e3, shapeCast_a_1a_apply]
  rfl

end Cert.Bridge

end
-- ==== Proof.Stretch1.lean ====
/-
  The first region's result, and the stretch of host operations between the two regions, one operation at a time.

  The first region leaves rows times weights, which is the reference's first product. The stretch then gathers that
  product's rows at the sources, scales every gathered row by its edge's normalisation, and adds the rows up at the
  targets: the first layer's aggregate. These are the reference's operations on operands that hold the reference's
  stages, so every buffer holds the reference's stage. Last, the first bias is laid out as one row for the second region.
-/
import proofs.«144796_j88476326297971_2_alg».proof.Proof.Gen.KernelIdeal.Frame
import proofs.«144796_j88476326297971_2_alg».proof.Proof.Gen.ReferenceIdeal.Read
import proofs.«144796_j88476326297971_2_alg».proof.Proof.LibSsaLocal
import proofs.«144796_j88476326297971_2_alg».proof.Proof.LibTRefStep
import proofs.«144796_j88476326297971_2_alg».proof.Proof.Stretch0
import proofs.«144796_j88476326297971_2_alg».proof.Proof.RegionArrays
import proofs.«144796_j88476326297971_2_alg».proof.Proof.RefBridge
import Idealize.ShloMosaic.Lib.StableHlo.Run

noncomputable section

namespace Cert.KernelIdeal.Stretch1

open Idealize.ShloMosaic Idealize.ShloMosaic.TcCoe Idealize.SL.Sem Idealize.ShloMosaic.StableHlo
open Cert.KernelIdeal Cert.KernelIdeal.Gen Cert.LibSsaLocal Cert.LibTRefStep
open Cert.ReferenceIdeal.Read

/-- The buffers this stretch writes, in the order of its operations: each is written once. -/
def ws : List (Ref sig .tc) := [main_call0_c_6, main_call0_v33, main_call0_v34, main_call0_c_7, main_call0_v35, main_call0_v36, main_call0_v37, main_call0_v38, main_call0_v39, main_call0_v40, main_call0_v41, main_call0_v42, main_call0_cst_8, main_call0_v43, main_call0_v44, main_call0_v45, main_call0_v46]

theorem hws : ((hostOps1 (F := Ideal)).map fun o => o.writes) = ws.map fun r => ({Proc.devRef .tc r} : Finset (DevRef τ sig)) := rfl

/-- A buffer absent from the written list past position K is written by no operation from position K on. -/
theorem nw (K : Nat) (r : Ref sig .tc) (h : r ∉ ws.drop K) : ∀ o ∈ (hostOps1 (F := Ideal)).drop K, Proc.devRef .tc r ∉ o.writes :=
  not_written _ ws hws K r h

variable (m : (ℓ : Loc nD τ sig) → Buf (Elt Ideal) ℓ) (ρ : Dev nD → PrngReg)

-- Every stage stands for its value here; only the stage being proved is opened, by its defining equation.
attribute [local irreducible] val_main_c_6 val_main_v33 val_main_v34 val_main_c_7 val_main_v35 val_main_v36 val_main_v37 val_main_v38 val_main_v39 val_main_v40 val_main_v41 val_main_v42 val_main_cst_8 val_main_v43 val_main_v44 val_main_v45 val_main_v5 val_main_v6 val_main_v31 val_main_v32

/-! ## What the first region leaves -/

theorem strip_call0_v32 (X : (⟨S100000x64, .f32⟩ : BufTy).Contents (Elt Ideal)) : (TRef.of main_call0_v32 : TRef sig ⟨S100000x64, .f32⟩).ofBuf X = X := rfl

/-- The first region leaves rows times weights of x and the first weights: the reference's first product. -/
theorem W2_v32 (c : Dev nD) : W2 m ρ c (Proc.devRef .tc main_call0_v32) = val_main_v32 (F := Ideal) (m ((c : Thread nD τ).loc main_arg0)) (m ((c : Thread nD τ).loc main_arg3)) := by
  refine (W2_arr m ρ c 2).trans ((RegionValue.final0 (V1 m ρ) c).trans ?_)
  show RegionValue.rowsTimes (StableHlo.after (hostOps0 (F := Ideal)) (W0 m ρ c) (Proc.devRef .tc main_arg0)) (StableHlo.after (hostOps0 (F := Ideal)) (W0 m ρ c) (Proc.devRef .tc main_arg3)) = _
  rw [Stretch0.raw_arg0 m ρ c, Stretch0.raw_arg3 m ρ c]
  exact Cert.Bridge.rowsTimes_ref _ _

/-! ## The stretch between the regions, in order -/

theorem at_call0_v5 (c : Dev nD) : (TRef.of main_call0_v5 : TRef sig ⟨S1700000, .i32⟩).ofBuf (StableHlo.after (hostOps1 (F := Ideal)) (W2 m ρ c) (Proc.devRef .tc main_call0_v5)) = val_main_v5 (F := Ideal) (m ((c : Thread nD τ).loc main_arg1)) :=
  (congrArg (TRef.ofBuf (TRef.of main_call0_v5 : TRef sig ⟨S1700000, .i32⟩)) (StableHlo.after_of_forall_not_mem (b := (Proc.devRef .tc main_call0_v5)) _ _ (nw 0 main_call0_v5 (by decide)))).trans ((congrArg (TRef.ofBuf (TRef.of main_call0_v5 : TRef sig ⟨S1700000, .i32⟩)) (W2_of_ne m ρ c main_call0_v5 (by decide))).trans (Stretch0.at_call0_v5 m ρ c))
theorem at_call0_v6 (c : Dev nD) : (TRef.of main_call0_v6 : TRef sig ⟨S1700000, .i32⟩).ofBuf (StableHlo.after (hostOps1 (F := Ideal)) (W2 m ρ c) (Proc.devRef .tc main_call0_v6)) = val_main_v6 (F := Ideal) (m ((c : Thread nD τ).loc main_arg1)) :=
  (congrArg (TRef.ofBuf (TRef.of main_call0_v6 : TRef sig ⟨S1700000, .i32⟩)) (StableHlo.after_of_forall_not_mem (b := (Proc.devRef .tc main_call0_v6)) _ _ (nw 0 main_call0_v6 (by decide)))).trans ((congrArg (TRef.ofBuf (TRef.of main_call0_v6 : TRef sig ⟨S1700000, .i32⟩)) (W2_of_ne m ρ c main_call0_v6 (by decide))).trans (Stretch0.at_call0_v6 m ρ c))
theorem at_call0_v31 (c : Dev nD) : (TRef.of main_call0_v31 : TRef sig ⟨S1700000, .f32⟩).ofBuf (StableHlo.after (hostOps1 (F := Ideal)) (W2 m ρ c) (Proc.devRef .tc main_call0_v31)) = val_main_v31 (F := Ideal) (m ((c : Thread nD τ).loc main_arg1)) (m ((c : Thread nD τ).loc main_arg2)) :=
  (congrArg (TRef.ofBuf (TRef.of main_call0_v31 : TRef sig ⟨S1700000, .f32⟩)) (StableHlo.after_of_forall_not_mem (b := (Proc.devRef .tc main_call0_v31)) _ _ (nw 0 main_call0_v31 (by decide)))).trans ((congrArg (TRef.ofBuf (TRef.of main_call0_v31 : TRef sig ⟨S1700000, .f32⟩)) (W2_of_ne m ρ c main_call0_v31 (by decide))).trans (Stretch0.at_call0_v31 m ρ c))
theorem at_call0_v32 (c : Dev nD) : (TRef.of main_call0_v32 : TRef sig ⟨S100000x64, .f32⟩).ofBuf (StableHlo.after (hostOps1 (F := Ideal)) (W2 m ρ c) (Proc.devRef .tc main_call0_v32)) = val_main_v32 (F := Ideal) (m ((c : Thread nD τ).loc main_arg0)) (m ((c : Thread nD τ).loc main_arg3)) :=
  (congrArg (TRef.ofBuf (TRef.of main_call0_v32 : TRef sig ⟨S100000x64, .f32⟩)) (StableHlo.after_of_forall_not_mem (b := (Proc.devRef .tc main_call0_v32)) _ _ (nw 0 main_call0_v32 (by decide)))).trans ((congrArg (TRef.ofBuf (TRef.of main_call0_v32 : TRef sig ⟨S100000x64, .f32⟩)) (W2_v32 m ρ c)).trans (strip_call0_v32 _))
theorem at_arg4 (c : Dev nD) : (TRef.of main_arg4 : TRef sig ⟨S64, .f32⟩).ofBuf (StableHlo.after (hostOps1 (F := Ideal)) (W2 m ρ c) (Proc.devRef .tc main_arg4)) = m ((c : Thread nD τ).loc main_arg4) :=
  (congrArg (TRef.ofBuf (TRef.of main_arg4 : TRef sig ⟨S64, .f32⟩)) (StableHlo.after_of_forall_not_mem (b := (Proc.devRef .tc main_arg4)) _ _ (nw 0 main_arg4 (by decide)))).trans ((congrArg (TRef.ofBuf (TRef.of main_arg4 : TRef sig ⟨S64, .f32⟩)) (W2_of_ne m ρ c main_arg4 (by decide))).trans (Stretch0.at_arg4 m ρ c))
theorem at_arg5 (c : Dev nD) : (TRef.of main_arg5 : TRef sig ⟨S64x64, .f32⟩).ofBuf (StableHlo.after (hostOps1 (F := Ideal)) (W2 m ρ c) (Proc.devRef .tc main_arg5)) = m ((c : Thread nD τ).loc main_arg5) :=
  (congrArg (TRef.ofBuf (TRef.of main_arg5 : TRef sig ⟨S64x64, .f32⟩)) (StableHlo.after_of_forall_not_mem (b := (Proc.devRef .tc main_arg5)) _ _ (nw 0 main_arg5 (by decide)))).trans ((congrArg (TRef.ofBuf (TRef.of main_arg5 : TRef sig ⟨S64x64, .f32⟩)) (W2_of_ne m ρ c main_arg5 (by decide))).trans (Stretch0.at_arg5 m ρ c))
theorem at_arg6 (c : Dev nD) : (TRef.of main_arg6 : TRef sig ⟨S64, .f32⟩).ofBuf (StableHlo.after (hostOps1 (F := Ideal)) (W2 m ρ c) (Proc.devRef .tc main_arg6)) = m ((c : Thread nD τ).loc main_arg6) :=
  (congrArg (TRef.ofBuf (TRef.of main_arg6 : TRef sig ⟨S64, .f32⟩)) (StableHlo.after_of_forall_not_mem (b := (Proc.devRef .tc main_arg6)) _ _ (nw 0 main_arg6 (by decide)))).trans ((congrArg (TRef.ofBuf (TRef.of main_arg6 : TRef sig ⟨S64, .f32⟩)) (W2_of_ne m ρ c main_arg6 (by decide))).trans (Stretch0.at_arg6 m ρ c))
theorem at_call0_c_6 (c : Dev nD) : (TRef.of main_call0_c_6 : TRef sig ⟨S_, .i32⟩).ofBuf (StableHlo.after (hostOps1 (F := Ideal)) (W2 m ρ c) (Proc.devRef .tc main_call0_c_6)) = val_main_c_6 (F := Ideal) := by
  refine (congrArg (TRef.ofBuf (TRef.of main_call0_c_6 : TRef sig ⟨S_, .i32⟩)) (after_at (hostOps1 (F := Ideal)) 0 _ rfl (W2 m ρ c) _ (nw 1 main_call0_c_6 (by decide)))).trans ?_
  refine (nullary_step (TRef.of main_call0_c_6 : TRef sig ⟨S_, .i32⟩) _ _).trans ?_
  unfold val_main_c_6
  rfl
theorem at_call0_v33 (c : Dev nD) : (TRef.of main_call0_v33 : TRef sig ⟨S1700000, .i32⟩).ofBuf (StableHlo.after (hostOps1 (F := Ideal)) (W2 m ρ c) (Proc.devRef .tc main_call0_v33)) = val_main_v33 (F := Ideal) := by
  refine (congrArg (TRef.ofBuf (TRef.of main_call0_v33 : TRef sig ⟨S1700000, .i32⟩)) (after_at (hostOps1 (F := Ideal)) 1 _ rfl (W2 m ρ c) _ (nw 2 main_call0_v33 (by decide)))).trans ?_
  refine (unary_step (TRef.of main_call0_c_6 : TRef sig ⟨S_, .i32⟩) (TRef.of main_call0_v33 : TRef sig ⟨S1700000, .i32⟩) _ _).trans ?_
  rw [← after_eq_take (hostOps1 (F := Ideal)) 1 (W2 m ρ c) (Proc.devRef .tc main_call0_c_6) (nw 1 main_call0_c_6 (by decide)), at_call0_c_6 m ρ c]
  unfold val_main_v33
  rfl
theorem at_call0_v34 (c : Dev nD) : (TRef.of main_call0_v34 : TRef sig ⟨S1700000, .i1⟩).ofBuf (StableHlo.after (hostOps1 (F := Ideal)) (W2 m ρ c) (Proc.devRef .tc main_call0_v34)) = val_main_v34 (F := Ideal) (m ((c : Thread nD τ).loc main_arg1)) := by
  refine (congrArg (TRef.ofBuf (TRef.of main_call0_v34 : TRef sig ⟨S1700000, .i1⟩)) (after_at (hostOps1 (F := Ideal)) 2 _ rfl (W2 m ρ c) _ (nw 3 main_call0_v34 (by decide)))).trans ?_
  refine (binary_step (TRef.of main_call0_v5 : TRef sig ⟨S1700000, .i32⟩) (TRef.of main_call0_v33 : TRef sig ⟨S1700000, .i32⟩) (TRef.of main_call0_v34 : TRef sig ⟨S1700000, .i1⟩) _ _).trans ?_
  rw [← after_eq_take (hostOps1 (F := Ideal)) 2 (W2 m ρ c) (Proc.devRef .tc main_call0_v5) (nw 2 main_call0_v5 (by decide)), at_call0_v5 m ρ c]
  rw [← after_eq_take (hostOps1 (F := Ideal)) 2 (W2 m ρ c) (Proc.devRef .tc main_call0_v33) (nw 2 main_call0_v33 (by decide)), at_call0_v33 m ρ c]
  unfold val_main_v34
  rfl
theorem at_call0_c_7 (c : Dev nD) : (TRef.of main_call0_c_7 : TRef sig ⟨S_, .i32⟩).ofBuf (StableHlo.after (hostOps1 (F := Ideal)) (W2 m ρ c) (Proc.devRef .tc main_call0_c_7)) = val_main_c_7 (F := Ideal) := by
  refine (congrArg (TRef.ofBuf (TRef.of main_call0_c_7 : TRef sig ⟨S_, .i32⟩)) (after_at (hostOps1 (F := Ideal)) 3 _ rfl (W2 m ρ c) _ (nw 4 main_call0_c_7 (by decide)))).trans ?_
  refine (nullary_step (TRef.of main_call0_c_7 : TRef sig ⟨S_, .i32⟩) _ _).trans ?_
  unfold val_main_c_7
  rfl
theorem at_call0_v35 (c : Dev nD) : (TRef.of main_call0_v35 : TRef sig ⟨S1700000, .i32⟩).ofBuf (StableHlo.after (hostOps1 (F := Ideal)) (W2 m ρ c) (Proc.devRef .tc main_call0_v35)) = val_main_v35 (F := Ideal) := by
  refine (congrArg (TRef.ofBuf (TRef.of main_call0_v35 : TRef sig ⟨S1700000, .i32⟩)) (after_at (hostOps1 (F := Ideal)) 4 _ rfl (W2 m ρ c) _ (nw 5 main_call0_v35 (by decide)))).trans ?_
  refine (unary_step (TRef.of main_call0_c_7 : TRef sig ⟨S_, .i32⟩) (TRef.of main_call0_v35 : TRef sig ⟨S1700000, .i32⟩) _ _).trans ?_
  rw [← after_eq_take (hostOps1 (F := Ideal)) 4 (W2 m ρ c) (Proc.devRef .tc main_call0_c_7) (nw 4 main_call0_c_7 (by decide)), at_call0_c_7 m ρ c]
  unfold val_main_v35
  rfl
theorem at_call0_v36 (c : Dev nD) : (TRef.of main_call0_v36 : TRef sig ⟨S1700000, .i32⟩).ofBuf (StableHlo.after (hostOps1 (F := Ideal)) (W2 m ρ c) (Proc.devRef .tc main_call0_v36)) = val_main_v36 (F := Ideal) (m ((c : Thread nD τ).loc main_arg1)) := by
  refine (congrArg (TRef.ofBuf (TRef.of main_call0_v36 : TRef sig ⟨S1700000, .i32⟩)) (after_at (hostOps1 (F := Ideal)) 5 _ rfl (W2 m ρ c) _ (nw 6 main_call0_v36 (by decide)))).trans ?_
  refine (binary_step (TRef.of main_call0_v5 : TRef sig ⟨S1700000, .i32⟩) (TRef.of main_call0_v35 : TRef sig ⟨S1700000, .i32⟩) (TRef.of main_call0_v36 : TRef sig ⟨S1700000, .i32⟩) _ _).trans ?_
  rw [← after_eq_take (hostOps1 (F := Ideal)) 5 (W2 m ρ c) (Proc.devRef .tc main_call0_v5) (nw 5 main_call0_v5 (by decide)), at_call0_v5 m ρ c]
  rw [← after_eq_take (hostOps1 (F := Ideal)) 5 (W2 m ρ c) (Proc.devRef .tc main_call0_v35) (nw 5 main_call0_v35 (by decide)), at_call0_v35 m ρ c]
  unfold val_main_v36
  rfl
theorem at_call0_v37 (c : Dev nD) : (TRef.of main_call0_v37 : TRef sig ⟨S1700000, .i32⟩).ofBuf (StableHlo.after (hostOps1 (F := Ideal)) (W2 m ρ c) (Proc.devRef .tc main_call0_v37)) = val_main_v37 (F := Ideal) (m ((c : Thread nD τ).loc main_arg1)) := by
  refine (congrArg (TRef.ofBuf (TRef.of main_call0_v37 : TRef sig ⟨S1700000, .i32⟩)) (after_at (hostOps1 (F := Ideal)) 6 _ rfl (W2 m ρ c) _ (nw 7 main_call0_v37 (by decide)))).trans ?_
  refine (ternary_step (TRef.of main_call0_v34 : TRef sig ⟨S1700000, .i1⟩) (TRef.of main_call0_v36 : TRef sig ⟨S1700000, .i32⟩) (TRef.of main_call0_v5 : TRef sig ⟨S1700000, .i32⟩) (TRef.of main_call0_v37 : TRef sig ⟨S1700000, .i32⟩) _ _).trans ?_
  rw [← after_eq_take (hostOps1 (F := Ideal)) 6 (W2 m ρ c) (Proc.devRef .tc main_call0_v34) (nw 6 main_call0_v34 (by decide)), at_call0_v34 m ρ c]
  rw [← after_eq_take (hostOps1 (F := Ideal)) 6 (W2 m ρ c) (Proc.devRef .tc main_call0_v36) (nw 6 main_call0_v36 (by decide)), at_call0_v36 m ρ c]
  rw [← after_eq_take (hostOps1 (F := Ideal)) 6 (W2 m ρ c) (Proc.devRef .tc main_call0_v5) (nw 6 main_call0_v5 (by decide)), at_call0_v5 m ρ c]
  unfold val_main_v37
  rfl
theorem at_call0_v38 (c : Dev nD) : (TRef.of main_call0_v38 : TRef sig ⟨S1700000x1, .i32⟩).ofBuf (StableHlo.after (hostOps1 (F := Ideal)) (W2 m ρ c) (Proc.devRef .tc main_call0_v38)) = val_main_v38 (F := Ideal) (m ((c : Thread nD τ).loc main_arg1)) := by
  refine (congrArg (TRef.ofBuf (TRef.of main_call0_v38 : TRef sig ⟨S1700000x1, .i32⟩)) (after_at (hostOps1 (F := Ideal)) 7 _ rfl (W2 m ρ c) _ (nw 8 main_call0_v38 (by decide)))).trans ?_
  refine (unary_step (TRef.of main_call0_v37 : TRef sig ⟨S1700000, .i32⟩) (TRef.of main_call0_v38 : TRef sig ⟨S1700000x1, .i32⟩) _ _).trans ?_
  rw [← after_eq_take (hostOps1 (F := Ideal)) 7 (W2 m ρ c) (Proc.devRef .tc main_call0_v37) (nw 7 main_call0_v37 (by decide)), at_call0_v37 m ρ c]
  unfold val_main_v38
  rfl
theorem at_call0_v39 (c : Dev nD) : (TRef.of main_call0_v39 : TRef sig ⟨S1700000x64, .f32⟩).ofBuf (StableHlo.after (hostOps1 (F := Ideal)) (W2 m ρ c) (Proc.devRef .tc main_call0_v39)) = val_main_v39 (F := Ideal) (m ((c : Thread nD τ).loc main_arg0)) (m ((c : Thread nD τ).loc main_arg1)) (m ((c : Thread nD τ).loc main_arg3)) := by
  refine (congrArg (TRef.ofBuf (TRef.of main_call0_v39 : TRef sig ⟨S1700000x64, .f32⟩)) (after_at (hostOps1 (F := Ideal)) 8 _ rfl (W2 m ρ c) _ (nw 9 main_call0_v39 (by decide)))).trans ?_
  refine (binary_step (TRef.of main_call0_v32 : TRef sig ⟨S100000x64, .f32⟩) (TRef.of main_call0_v38 : TRef sig ⟨S1700000x1, .i32⟩) (TRef.of main_call0_v39 : TRef sig ⟨S1700000x64, .f32⟩) _ _).trans ?_
  rw [← after_eq_take (hostOps1 (F := Ideal)) 8 (W2 m ρ c) (Proc.devRef .tc main_call0_v32) (nw 8 main_call0_v32 (by decide)), at_call0_v32 m ρ c]
  rw [← after_eq_take (hostOps1 (F := Ideal)) 8 (W2 m ρ c) (Proc.devRef .tc main_call0_v38) (nw 8 main_call0_v38 (by decide)), at_call0_v38 m ρ c]
  unfold val_main_v39
  rfl
theorem at_call0_v40 (c : Dev nD) : (TRef.of main_call0_v40 : TRef sig ⟨S1700000x1, .f32⟩).ofBuf (StableHlo.after (hostOps1 (F := Ideal)) (W2 m ρ c) (Proc.devRef .tc main_call0_v40)) = val_main_v40 (F := Ideal) (m ((c : Thread nD τ).loc main_arg1)) (m ((c : Thread nD τ).loc main_arg2)) := by
  refine (congrArg (TRef.ofBuf (TRef.of main_call0_v40 : TRef sig ⟨S1700000x1, .f32⟩)) (after_at (hostOps1 (F := Ideal)) 9 _ rfl (W2 m ρ c) _ (nw 10 main_call0_v40 (by decide)))).trans ?_
  refine (unary_step (TRef.of main_call0_v31 : TRef sig ⟨S1700000, .f32⟩) (TRef.of main_call0_v40 : TRef sig ⟨S1700000x1, .f32⟩) _ _).trans ?_
  rw [← after_eq_take (hostOps1 (F := Ideal)) 9 (W2 m ρ c) (Proc.devRef .tc main_call0_v31) (nw 9 main_call0_v31 (by decide)), at_call0_v31 m ρ c]
  unfold val_main_v40
  rfl
theorem at_call0_v41 (c : Dev nD) : (TRef.of main_call0_v41 : TRef sig ⟨S1700000x64, .f32⟩).ofBuf (StableHlo.after (hostOps1 (F := Ideal)) (W2 m ρ c) (Proc.devRef .tc main_call0_v41)) = val_main_v41 (F := Ideal) (m ((c : Thread nD τ).loc main_arg1)) (m ((c : Thread nD τ).loc main_arg2)) := by
  refine (congrArg (TRef.ofBuf (TRef.of main_call0_v41 : TRef sig ⟨S1700000x64, .f32⟩)) (after_at (hostOps1 (F := Ideal)) 10 _ rfl (W2 m ρ c) _ (nw 11 main_call0_v41 (by decide)))).trans ?_
  refine (unary_step (TRef.of main_call0_v40 : TRef sig ⟨S1700000x1, .f32⟩) (TRef.of main_call0_v41 : TRef sig ⟨S1700000x64, .f32⟩) _ _).trans ?_
  rw [← after_eq_take (hostOps1 (F := Ideal)) 10 (W2 m ρ c) (Proc.devRef .tc main_call0_v40) (nw 10 main_call0_v40 (by decide)), at_call0_v40 m ρ c]
  unfold val_main_v41
  rfl
theorem at_call0_v42 (c : Dev nD) : (TRef.of main_call0_v42 : TRef sig ⟨S1700000x64, .f32⟩).ofBuf (StableHlo.after (hostOps1 (F := Ideal)) (W2 m ρ c) (Proc.devRef .tc main_call0_v42)) = val_main_v42 (F := Ideal) (m ((c : Thread nD τ).loc main_arg0)) (m ((c : Thread nD τ).loc main_arg1)) (m ((c : Thread nD τ).loc main_arg2)) (m ((c : Thread nD τ).loc main_arg3)) := by
  refine (congrArg (TRef.ofBuf (TRef.of main_call0_v42 : TRef sig ⟨S1700000x64, .f32⟩)) (after_at (hostOps1 (F := Ideal)) 11 _ rfl (W2 m ρ c) _ (nw 12 main_call0_v42 (by decide)))).trans ?_
  refine (binary_step (TRef.of main_call0_v39 : TRef sig ⟨S1700000x64, .f32⟩) (TRef.of main_call0_v41 : TRef sig ⟨S1700000x64, .f32⟩) (TRef.of main_call0_v42 : TRef sig ⟨S1700000x64, .f32⟩) _ _).trans ?_
  rw [← after_eq_take (hostOps1 (F := Ideal)) 11 (W2 m ρ c) (Proc.devRef .tc main_call0_v39) (nw 11 main_call0_v39 (by decide)), at_call0_v39 m ρ c]
  rw [← after_eq_take (hostOps1 (F := Ideal)) 11 (W2 m ρ c) (Proc.devRef .tc main_call0_v41) (nw 11 main_call0_v41 (by decide)), at_call0_v41 m ρ c]
  unfold val_main_v42
  rfl
theorem at_call0_cst_8 (c : Dev nD) : (TRef.of main_call0_cst_8 : TRef sig ⟨S_, .f32⟩).ofBuf (StableHlo.after (hostOps1 (F := Ideal)) (W2 m ρ c) (Proc.devRef .tc main_call0_cst_8)) = val_main_cst_8 (F := Ideal) := by
  refine (congrArg (TRef.ofBuf (TRef.of main_call0_cst_8 : TRef sig ⟨S_, .f32⟩)) (after_at (hostOps1 (F := Ideal)) 12 _ rfl (W2 m ρ c) _ (nw 13 main_call0_cst_8 (by decide)))).trans ?_
  refine (nullary_step (TRef.of main_call0_cst_8 : TRef sig ⟨S_, .f32⟩) _ _).trans ?_
  unfold val_main_cst_8
  rfl
theorem at_call0_v43 (c : Dev nD) : (TRef.of main_call0_v43 : TRef sig ⟨S100000x64, .f32⟩).ofBuf (StableHlo.after (hostOps1 (F := Ideal)) (W2 m ρ c) (Proc.devRef .tc main_call0_v43)) = val_main_v43 (F := Ideal) := by
  refine (congrArg (TRef.ofBuf (TRef.of main_call0_v43 : TRef sig ⟨S100000x64, .f32⟩)) (after_at (hostOps1 (F := Ideal)) 13 _ rfl (W2 m ρ c) _ (nw 14 main_call0_v43 (by decide)))).trans ?_
  refine (unary_step (TRef.of main_call0_cst_8 : TRef sig ⟨S_, .f32⟩) (TRef.of main_call0_v43 : TRef sig ⟨S100000x64, .f32⟩) _ _).trans ?_
  rw [← after_eq_take (hostOps1 (F := Ideal)) 13 (W2 m ρ c) (Proc.devRef .tc main_call0_cst_8) (nw 13 main_call0_cst_8 (by decide)), at_call0_cst_8 m ρ c]
  unfold val_main_v43
  rfl
theorem at_call0_v44 (c : Dev nD) : (TRef.of main_call0_v44 : TRef sig ⟨S1700000x1, .i32⟩).ofBuf (StableHlo.after (hostOps1 (F := Ideal)) (W2 m ρ c) (Proc.devRef .tc main_call0_v44)) = val_main_v44 (F := Ideal) (m ((c : Thread nD τ).loc main_arg1)) := by
  refine (congrArg (TRef.ofBuf (TRef.of main_call0_v44 : TRef sig ⟨S1700000x1, .i32⟩)) (after_at (hostOps1 (F := Ideal)) 14 _ rfl (W2 m ρ c) _ (nw 15 main_call0_v44 (by decide)))).trans ?_
  refine (unary_step (TRef.of main_call0_v6 : TRef sig ⟨S1700000, .i32⟩) (TRef.of main_call0_v44 : TRef sig ⟨S1700000x1, .i32⟩) _ _).trans ?_
  rw [← after_eq_take (hostOps1 (F := Ideal)) 14 (W2 m ρ c) (Proc.devRef .tc main_call0_v6) (nw 14 main_call0_v6 (by decide)), at_call0_v6 m ρ c]
  unfold val_main_v44
  rfl
theorem at_call0_v45 (c : Dev nD) : (TRef.of main_call0_v45 : TRef sig ⟨S100000x64, .f32⟩).ofBuf (StableHlo.after (hostOps1 (F := Ideal)) (W2 m ρ c) (Proc.devRef .tc main_call0_v45)) = val_main_v45 (F := Ideal) (m ((c : Thread nD τ).loc main_arg0)) (m ((c : Thread nD τ).loc main_arg1)) (m ((c : Thread nD τ).loc main_arg2)) (m ((c : Thread nD τ).loc main_arg3)) := by
  refine (congrArg (TRef.ofBuf (TRef.of main_call0_v45 : TRef sig ⟨S100000x64, .f32⟩)) (after_at (hostOps1 (F := Ideal)) 15 _ rfl (W2 m ρ c) _ (nw 16 main_call0_v45 (by decide)))).trans ?_
  refine (ternary_step (TRef.of main_call0_v43 : TRef sig ⟨S100000x64, .f32⟩) (TRef.of main_call0_v44 : TRef sig ⟨S1700000x1, .i32⟩) (TRef.of main_call0_v42 : TRef sig ⟨S1700000x64, .f32⟩) (TRef.of main_call0_v45 : TRef sig ⟨S100000x64, .f32⟩) _ _).trans ?_
  rw [← after_eq_take (hostOps1 (F := Ideal)) 15 (W2 m ρ c) (Proc.devRef .tc main_call0_v43) (nw 15 main_call0_v43 (by decide)), at_call0_v43 m ρ c]
  rw [← after_eq_take (hostOps1 (F := Ideal)) 15 (W2 m ρ c) (Proc.devRef .tc main_call0_v44) (nw 15 main_call0_v44 (by decide)), at_call0_v44 m ρ c]
  rw [← after_eq_take (hostOps1 (F := Ideal)) 15 (W2 m ρ c) (Proc.devRef .tc main_call0_v42) (nw 15 main_call0_v42 (by decide)), at_call0_v42 m ρ c]
  unfold val_main_v45
  rfl
theorem at_call0_v46 (c : Dev nD) : (TRef.of main_call0_v46 : TRef sig ⟨S1x64, .f32⟩).ofBuf (StableHlo.after (hostOps1 (F := Ideal)) (W2 m ρ c) (Proc.devRef .tc main_call0_v46)) = shapeCast S1x64 (m ((c : Thread nD τ).loc main_arg4)) shapeCasts_S64_S1x64 := by
  refine (congrArg (TRef.ofBuf (TRef.of main_call0_v46 : TRef sig ⟨S1x64, .f32⟩)) (after_at (hostOps1 (F := Ideal)) 16 _ rfl (W2 m ρ c) _ (nw 17 main_call0_v46 (by decide)))).trans ?_
  refine (reshape_step (TRef.of main_arg4 : TRef sig ⟨S64, .f32⟩) (TRef.of main_call0_v46 : TRef sig ⟨S1x64, .f32⟩) _ _ _).trans ?_
  rw [← after_eq_take (hostOps1 (F := Ideal)) 16 (W2 m ρ c) (Proc.devRef .tc main_arg4) (nw 16 main_arg4 (by decide)), at_arg4 m ρ c]

/-! ## What the second region is entered with -/

theorem strip_call0_v45 (X : (⟨S100000x64, .f32⟩ : BufTy).Contents (Elt Ideal)) : (TRef.of main_call0_v45 : TRef sig ⟨S100000x64, .f32⟩).ofBuf X = X := rfl
theorem strip_call0_v46 (X : (⟨S1x64, .f32⟩ : BufTy).Contents (Elt Ideal)) : (TRef.of main_call0_v46 : TRef sig ⟨S1x64, .f32⟩).ofBuf X = X := rfl
theorem strip_arg5 (X : (⟨S64x64, .f32⟩ : BufTy).Contents (Elt Ideal)) : (TRef.of main_arg5 : TRef sig ⟨S64x64, .f32⟩).ofBuf X = X := rfl
theorem raw_v45 (c : Dev nD) : StableHlo.after (hostOps1 (F := Ideal)) (W2 m ρ c) (Proc.devRef .tc main_call0_v45) = val_main_v45 (F := Ideal) (m ((c : Thread nD τ).loc main_arg0)) (m ((c : Thread nD τ).loc main_arg1)) (m ((c : Thread nD τ).loc main_arg2)) (m ((c : Thread nD τ).loc main_arg3)) :=
  (strip_call0_v45 _).symm.trans (at_call0_v45 m ρ c)
theorem raw_v46 (c : Dev nD) : StableHlo.after (hostOps1 (F := Ideal)) (W2 m ρ c) (Proc.devRef .tc main_call0_v46) = shapeCast S1x64 (m ((c : Thread nD τ).loc main_arg4)) shapeCasts_S64_S1x64 :=
  (strip_call0_v46 _).symm.trans (at_call0_v46 m ρ c)
theorem raw_arg5 (c : Dev nD) : StableHlo.after (hostOps1 (F := Ideal)) (W2 m ρ c) (Proc.devRef .tc main_arg5) = m ((c : Thread nD τ).loc main_arg5) :=
  (strip_arg5 _).symm.trans (at_arg5 m ρ c)

end Cert.KernelIdeal.Stretch1

end
-- ==== Proof.RefSecond.lean ====
/-
  The reference's second layer recomputes what its first layer computed.

  Each layer of the reference builds, from the edge indices and weights alone, the source and target lists with a
  self-loop per node, the padded weights, the degrees, their inverse roots and every edge's normalisation. The second
  layer's copies are built by the same operations from the same arguments as the first layer's, so stage by stage they are
  the first layer's: each stage's definition, with its operands' second copies replaced by the first, is the first copy's
  definition.
-/
import proofs.«144796_j88476326297971_2_alg».proof.Proof.Gen.ReferenceIdeal.Read

noncomputable section

namespace Cert.RefSecond

open Idealize.ShloMosaic Cert.ReferenceIdeal Cert.ReferenceIdeal.Read

theorem eq_v50  : val_main_v50 (F := Ideal)  = val_main_v4 (F := Ideal)  := by
  simp only [val_main_v50, val_main_v4]
theorem eq_v51 (x1 : IVec S2x1600000 32) : val_main_v51 (F := Ideal) x1 = val_main_v5 (F := Ideal) x1 := by
  unfold val_main_v51 val_main_v5
  rw [eq_v50]
theorem eq_v52 (x1 : IVec S2x1600000 32) : val_main_v52 (F := Ideal) x1 = val_main_v6 (F := Ideal) x1 := by
  unfold val_main_v52 val_main_v6
  rw [eq_v50]
theorem eq_cst_9  : val_main_cst_9 (F := Ideal)  = val_main_cst (F := Ideal)  := by
  simp only [val_main_cst_9, val_main_cst]
theorem eq_v53  : val_main_v53 (F := Ideal)  = val_main_v7 (F := Ideal)  := by
  simp only [val_main_v53, val_main_v7, eq_cst_9]
theorem eq_v54 (x2 : FVec Ideal S1600000 .f32) : val_main_v54 (F := Ideal) x2 = val_main_v8 (F := Ideal) x2 := by
  unfold val_main_v54 val_main_v8
  rw [eq_v53]
theorem eq_cst_10  : val_main_cst_10 (F := Ideal)  = val_main_cst_0 (F := Ideal)  := by
  simp only [val_main_cst_10, val_main_cst_0]
theorem eq_v55  : val_main_v55 (F := Ideal)  = val_main_v9 (F := Ideal)  := by
  simp only [val_main_v55, val_main_v9, eq_cst_10]
theorem eq_v56 (x1 : IVec S2x1600000 32) : val_main_v56 (F := Ideal) x1 = val_main_v10 (F := Ideal) x1 := by
  simp only [val_main_v56, val_main_v10, eq_v52]
theorem eq_v57 (x1 : IVec S2x1600000 32) (x2 : FVec Ideal S1600000 .f32) : val_main_v57 (F := Ideal) x1 x2 = val_main_v11 (F := Ideal) x1 x2 := by
  simp only [val_main_v57, val_main_v11, eq_v55, eq_v56, eq_v54]
theorem eq_cst_11  : val_main_cst_11 (F := Ideal)  = val_main_cst_1 (F := Ideal)  := by
  simp only [val_main_cst_11, val_main_cst_1]
theorem eq_v58  : val_main_v58 (F := Ideal)  = val_main_v12 (F := Ideal)  := by
  simp only [val_main_v58, val_main_v12, eq_cst_11]
theorem eq_v59 (x1 : IVec S2x1600000 32) (x2 : FVec Ideal S1600000 .f32) : val_main_v59 (F := Ideal) x1 x2 = val_main_v13 (F := Ideal) x1 x2 := by
  simp only [val_main_v59, val_main_v13, eq_v57, eq_v58]
theorem eq_v60 (x1 : IVec S2x1600000 32) (x2 : FVec Ideal S1600000 .f32) : val_main_v60 (F := Ideal) x1 x2 = val_main_v14 (F := Ideal) x1 x2 := by
  simp only [val_main_v60, val_main_v14, eq_v57]
theorem eq_cst_12  : val_main_cst_12 (F := Ideal)  = val_main_cst_2 (F := Ideal)  := by
  simp only [val_main_cst_12, val_main_cst_2]
theorem eq_call2_v0  : val_main_call2_v0 (F := Ideal)  = val_main_call0_v0 (F := Ideal)  := by
  simp only [val_main_call2_v0, val_main_call0_v0, eq_cst_12]
theorem eq_call2_v1  : val_main_call2_v1 (F := Ideal)  = val_main_call0_v1 (F := Ideal)  := by
  simp only [val_main_call2_v1, val_main_call0_v1, eq_call2_v0]
theorem eq_v61 (x1 : IVec S2x1600000 32) (x2 : FVec Ideal S1600000 .f32) : val_main_v61 (F := Ideal) x1 x2 = val_main_v15 (F := Ideal) x1 x2 := by
  simp only [val_main_v61, val_main_v15, eq_v59, eq_v60, eq_call2_v1]
theorem eq_c_13  : val_main_c_13 (F := Ideal)  = val_main_c (F := Ideal)  := by
  simp only [val_main_c_13, val_main_c]
theorem eq_v62  : val_main_v62 (F := Ideal)  = val_main_v16 (F := Ideal)  := by
  simp only [val_main_v62, val_main_v16, eq_c_13]
theorem eq_v63 (x1 : IVec S2x1600000 32) : val_main_v63 (F := Ideal) x1 = val_main_v17 (F := Ideal) x1 := by
  simp only [val_main_v63, val_main_v17, eq_v51, eq_v62]
theorem eq_c_14  : val_main_c_14 (F := Ideal)  = val_main_c_3 (F := Ideal)  := by
  simp only [val_main_c_14, val_main_c_3]
theorem eq_v64  : val_main_v64 (F := Ideal)  = val_main_v18 (F := Ideal)  := by
  simp only [val_main_v64, val_main_v18, eq_c_14]
theorem eq_v65 (x1 : IVec S2x1600000 32) : val_main_v65 (F := Ideal) x1 = val_main_v19 (F := Ideal) x1 := by
  simp only [val_main_v65, val_main_v19, eq_v51, eq_v64]
theorem eq_v66 (x1 : IVec S2x1600000 32) : val_main_v66 (F := Ideal) x1 = val_main_v20 (F := Ideal) x1 := by
  simp only [val_main_v66, val_main_v20, eq_v63, eq_v65, eq_v51]
theorem eq_v67 (x1 : IVec S2x1600000 32) : val_main_v67 (F := Ideal) x1 = val_main_v21 (F := Ideal) x1 := by
  simp only [val_main_v67, val_main_v21, eq_v66]
theorem eq_v68 (x1 : IVec S2x1600000 32) (x2 : FVec Ideal S1600000 .f32) : val_main_v68 (F := Ideal) x1 x2 = val_main_v22 (F := Ideal) x1 x2 := by
  simp only [val_main_v68, val_main_v22, eq_v61, eq_v67]
theorem eq_v69 (x1 : IVec S2x1600000 32) (x2 : FVec Ideal S1600000 .f32) : val_main_v69 (F := Ideal) x1 x2 = val_main_v23 (F := Ideal) x1 x2 := by
  simp only [val_main_v69, val_main_v23, eq_v68, eq_v54]
theorem eq_c_15  : val_main_c_15 (F := Ideal)  = val_main_c_4 (F := Ideal)  := by
  simp only [val_main_c_15, val_main_c_4]
theorem eq_v70  : val_main_v70 (F := Ideal)  = val_main_v24 (F := Ideal)  := by
  simp only [val_main_v70, val_main_v24, eq_c_15]
theorem eq_v71 (x1 : IVec S2x1600000 32) : val_main_v71 (F := Ideal) x1 = val_main_v25 (F := Ideal) x1 := by
  simp only [val_main_v71, val_main_v25, eq_v52, eq_v70]
theorem eq_c_16  : val_main_c_16 (F := Ideal)  = val_main_c_5 (F := Ideal)  := by
  simp only [val_main_c_16, val_main_c_5]
theorem eq_v72  : val_main_v72 (F := Ideal)  = val_main_v26 (F := Ideal)  := by
  simp only [val_main_v72, val_main_v26, eq_c_16]
theorem eq_v73 (x1 : IVec S2x1600000 32) : val_main_v73 (F := Ideal) x1 = val_main_v27 (F := Ideal) x1 := by
  simp only [val_main_v73, val_main_v27, eq_v52, eq_v72]
theorem eq_v74 (x1 : IVec S2x1600000 32) : val_main_v74 (F := Ideal) x1 = val_main_v28 (F := Ideal) x1 := by
  simp only [val_main_v74, val_main_v28, eq_v71, eq_v73, eq_v52]
theorem eq_v75 (x1 : IVec S2x1600000 32) : val_main_v75 (F := Ideal) x1 = val_main_v29 (F := Ideal) x1 := by
  simp only [val_main_v75, val_main_v29, eq_v74]
theorem eq_v76 (x1 : IVec S2x1600000 32) (x2 : FVec Ideal S1600000 .f32) : val_main_v76 (F := Ideal) x1 x2 = val_main_v30 (F := Ideal) x1 x2 := by
  simp only [val_main_v76, val_main_v30, eq_v61, eq_v75]
theorem eq_v77 (x1 : IVec S2x1600000 32) (x2 : FVec Ideal S1600000 .f32) : val_main_v77 (F := Ideal) x1 x2 = val_main_v31 (F := Ideal) x1 x2 := by
  simp only [val_main_v77, val_main_v31, eq_v69, eq_v76]

end Cert.RefSecond

end
-- ==== Proof.Stretch2.lean ====
/-
  The second region's result, and the stretch of host operations after it, one operation at a time.

  The second region leaves the clamped rows times weights of the first layer's aggregate, of the first bias as one row and
  of the second weights, which is the reference's second product. The last stretch aggregates that product exactly as the
  first product was aggregated — rows gathered at the sources, scaled by the normalisation, added up at the targets — and
  adds the second bias to every row. The reference does the same with its second-layer copies of the lists and the
  normalisation, which are the first layer's, so the result buffer ends holding the reference's result.
-/
import proofs.«144796_j88476326297971_2_alg».proof.Proof.Gen.KernelIdeal.Frame
import proofs.«144796_j88476326297971_2_alg».proof.Proof.Gen.ReferenceIdeal.Read
import proofs.«144796_j88476326297971_2_alg».proof.Proof.LibSsaLocal
import proofs.«144796_j88476326297971_2_alg».proof.Proof.LibTRefStep
import proofs.«144796_j88476326297971_2_alg».proof.Proof.Stretch1
import proofs.«144796_j88476326297971_2_alg».proof.Proof.RefSecond
import proofs.«144796_j88476326297971_2_alg».proof.Proof.RegionArrays
import proofs.«144796_j88476326297971_2_alg».proof.Proof.RefBridge
import Idealize.ShloMosaic.Lib.StableHlo.Run

noncomputable section

namespace Cert.KernelIdeal.Stretch2

open Idealize.ShloMosaic Idealize.ShloMosaic.TcCoe Idealize.SL.Sem Idealize.ShloMosaic.StableHlo
open Cert.KernelIdeal Cert.KernelIdeal.Gen Cert.LibSsaLocal Cert.LibTRefStep
open Cert.ReferenceIdeal.Read

/-- The buffers this stretch writes, in the order of its operations: each is written once. -/
def ws : List (Ref sig .tc) := [main_call0_c_9, main_call0_v48, main_call0_v49, main_call0_c_10, main_call0_v50, main_call0_v51, main_call0_v52, main_call0_v53, main_call0_v54, main_call0_v55, main_call0_v56, main_call0_v57, main_call0_cst_11, main_call0_v58, main_call0_v59, main_call0_v60, main_call0_v61, main_call0_v62, main_v0]

theorem hws : ((hostOps2 (F := Ideal)).map fun o => o.writes) = ws.map fun r => ({Proc.devRef .tc r} : Finset (DevRef τ sig)) := rfl

/-- A buffer absent from the written list past position K is written by no operation from position K on. -/
theorem nw (K : Nat) (r : Ref sig .tc) (h : r ∉ ws.drop K) : ∀ o ∈ (hostOps2 (F := Ideal)).drop K, Proc.devRef .tc r ∉ o.writes :=
  not_written _ ws hws K r h

variable (m : (ℓ : Loc nD τ sig) → Buf (Elt Ideal) ℓ) (ρ : Dev nD → PrngReg)

-- Every stage stands for its value here; only the stage being proved is opened, by its defining equation.
attribute [local irreducible] val_main_c_17 val_main_v79 val_main_v80 val_main_c_18 val_main_v81 val_main_v82 val_main_v83 val_main_v84 val_main_v85 val_main_v86 val_main_v87 val_main_v88 val_main_cst_19 val_main_v89 val_main_v90 val_main_v91 val_main_v92 val_main_v93 val_main_v94 val_main_v51 val_main_v52 val_main_v77 val_main_v78 val_main_v45

/-! ## What the second region leaves -/

theorem strip_call0_v47 (X : (⟨S100000x64, .f32⟩ : BufTy).Contents (Elt Ideal)) : (TRef.of main_call0_v47 : TRef sig ⟨S100000x64, .f32⟩).ofBuf X = X := rfl

/-- The second region leaves the clamped rows times weights of the aggregate, the bias row and the second weights: the
    reference's second product. -/
theorem W4_v47 (c : Dev nD) : W4 m ρ c (Proc.devRef .tc main_call0_v47) = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W4_arr m ρ c 3).trans ((RegionValue.final1 (V3 m ρ) c).trans ?_)
  show RegionValue.clampedRowsTimes (StableHlo.after (hostOps1 (F := Ideal)) (W2 m ρ c) (Proc.devRef .tc main_call0_v45)) (StableHlo.after (hostOps1 (F := Ideal)) (W2 m ρ c) (Proc.devRef .tc main_call0_v46)) (StableHlo.after (hostOps1 (F := Ideal)) (W2 m ρ c) (Proc.devRef .tc main_arg5)) = _
  rw [Stretch1.raw_v45 m ρ c, Stretch1.raw_v46 m ρ c, Stretch1.raw_arg5 m ρ c]
  exact Cert.Bridge.clamped_ref _ _ _ _ _ _ _

/-! ## The stretch after the second region, in order -/

theorem at_call0_v5 (c : Dev nD) : (TRef.of main_call0_v5 : TRef sig ⟨S1700000, .i32⟩).ofBuf (StableHlo.after (hostOps2 (F := Ideal)) (W4 m ρ c) (Proc.devRef .tc main_call0_v5)) = val_main_v51 (F := Ideal) (m ((c : Thread nD τ).loc main_arg1)) :=
  (congrArg (TRef.ofBuf (TRef.of main_call0_v5 : TRef sig ⟨S1700000, .i32⟩)) (StableHlo.after_of_forall_not_mem (b := (Proc.devRef .tc main_call0_v5)) _ _ (nw 0 main_call0_v5 (by decide)))).trans (((congrArg (TRef.ofBuf (TRef.of main_call0_v5 : TRef sig ⟨S1700000, .i32⟩)) (W4_of_ne m ρ c main_call0_v5 (by decide))).trans (Stretch1.at_call0_v5 m ρ c)).trans (Cert.RefSecond.eq_v51 _).symm)
theorem at_call0_v6 (c : Dev nD) : (TRef.of main_call0_v6 : TRef sig ⟨S1700000, .i32⟩).ofBuf (StableHlo.after (hostOps2 (F := Ideal)) (W4 m ρ c) (Proc.devRef .tc main_call0_v6)) = val_main_v52 (F := Ideal) (m ((c : Thread nD τ).loc main_arg1)) :=
  (congrArg (TRef.ofBuf (TRef.of main_call0_v6 : TRef sig ⟨S1700000, .i32⟩)) (StableHlo.after_of_forall_not_mem (b := (Proc.devRef .tc main_call0_v6)) _ _ (nw 0 main_call0_v6 (by decide)))).trans (((congrArg (TRef.ofBuf (TRef.of main_call0_v6 : TRef sig ⟨S1700000, .i32⟩)) (W4_of_ne m ρ c main_call0_v6 (by decide))).trans (Stretch1.at_call0_v6 m ρ c)).trans (Cert.RefSecond.eq_v52 _).symm)
theorem at_call0_v31 (c : Dev nD) : (TRef.of main_call0_v31 : TRef sig ⟨S1700000, .f32⟩).ofBuf (StableHlo.after (hostOps2 (F := Ideal)) (W4 m ρ c) (Proc.devRef .tc main_call0_v31)) = val_main_v77 (F := Ideal) (m ((c : Thread nD τ).loc main_arg1)) (m ((c : Thread nD τ).loc main_arg2)) :=
  (congrArg (TRef.ofBuf (TRef.of main_call0_v31 : TRef sig ⟨S1700000, .f32⟩)) (StableHlo.after_of_forall_not_mem (b := (Proc.devRef .tc main_call0_v31)) _ _ (nw 0 main_call0_v31 (by decide)))).trans (((congrArg (TRef.ofBuf (TRef.of main_call0_v31 : TRef sig ⟨S1700000, .f32⟩)) (W4_of_ne m ρ c main_call0_v31 (by decide))).trans (Stretch1.at_call0_v31 m ρ c)).trans (Cert.RefSecond.eq_v77 _ _).symm)
theorem at_call0_v47 (c : Dev nD) : (TRef.of main_call0_v47 : TRef sig ⟨S100000x64, .f32⟩).ofBuf (StableHlo.after (hostOps2 (F := Ideal)) (W4 m ρ c) (Proc.devRef .tc main_call0_v47)) = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (congrArg (TRef.ofBuf (TRef.of main_call0_v47 : TRef sig ⟨S100000x64, .f32⟩)) (StableHlo.after_of_forall_not_mem (b := (Proc.devRef .tc main_call0_v47)) _ _ (nw 0 main_call0_v47 (by decide)))).trans ((congrArg (TRef.ofBuf (TRef.of main_call0_v47 : TRef sig ⟨S100000x64, .f32⟩)) (W4_v47 m ρ c)).trans (strip_call0_v47 _))
theorem at_arg6 (c : Dev nD) : (TRef.of main_arg6 : TRef sig ⟨S64, .f32⟩).ofBuf (StableHlo.after (hostOps2 (F := Ideal)) (W4 m ρ c) (Proc.devRef .tc main_arg6)) = m ((c : Thread nD τ).loc main_arg6) :=
  (congrArg (TRef.ofBuf (TRef.of main_arg6 : TRef sig ⟨S64, .f32⟩)) (StableHlo.after_of_forall_not_mem (b := (Proc.devRef .tc main_arg6)) _ _ (nw 0 main_arg6 (by decide)))).trans ((congrArg (TRef.ofBuf (TRef.of main_arg6 : TRef sig ⟨S64, .f32⟩)) (W4_of_ne m ρ c main_arg6 (by decide))).trans (Stretch1.at_arg6 m ρ c))
theorem at_call0_c_9 (c : Dev nD) : (TRef.of main_call0_c_9 : TRef sig ⟨S_, .i32⟩).ofBuf (StableHlo.after (hostOps2 (F := Ideal)) (W4 m ρ c) (Proc.devRef .tc main_call0_c_9)) = val_main_c_17 (F := Ideal) := by
  refine (congrArg (TRef.ofBuf (TRef.of main_call0_c_9 : TRef sig ⟨S_, .i32⟩)) (after_at (hostOps2 (F := Ideal)) 0 _ rfl (W4 m ρ c) _ (nw 1 main_call0_c_9 (by decide)))).trans ?_
  refine (nullary_step (TRef.of main_call0_c_9 : TRef sig ⟨S_, .i32⟩) _ _).trans ?_
  unfold val_main_c_17
  rfl
theorem at_call0_v48 (c : Dev nD) : (TRef.of main_call0_v48 : TRef sig ⟨S1700000, .i32⟩).ofBuf (StableHlo.after (hostOps2 (F := Ideal)) (W4 m ρ c) (Proc.devRef .tc main_call0_v48)) = val_main_v79 (F := Ideal) := by
  refine (congrArg (TRef.ofBuf (TRef.of main_call0_v48 : TRef sig ⟨S1700000, .i32⟩)) (after_at (hostOps2 (F := Ideal)) 1 _ rfl (W4 m ρ c) _ (nw 2 main_call0_v48 (by decide)))).trans ?_
  refine (unary_step (TRef.of main_call0_c_9 : TRef sig ⟨S_, .i32⟩) (TRef.of main_call0_v48 : TRef sig ⟨S1700000, .i32⟩) _ _).trans ?_
  rw [← after_eq_take (hostOps2 (F := Ideal)) 1 (W4 m ρ c) (Proc.devRef .tc main_call0_c_9) (nw 1 main_call0_c_9 (by decide)), at_call0_c_9 m ρ c]
  unfold val_main_v79
  rfl
theorem at_call0_v49 (c : Dev nD) : (TRef.of main_call0_v49 : TRef sig ⟨S1700000, .i1⟩).ofBuf (StableHlo.after (hostOps2 (F := Ideal)) (W4 m ρ c) (Proc.devRef .tc main_call0_v49)) = val_main_v80 (F := Ideal) (m ((c : Thread nD τ).loc main_arg1)) := by
  refine (congrArg (TRef.ofBuf (TRef.of main_call0_v49 : TRef sig ⟨S1700000, .i1⟩)) (after_at (hostOps2 (F := Ideal)) 2 _ rfl (W4 m ρ c) _ (nw 3 main_call0_v49 (by decide)))).trans ?_
  refine (binary_step (TRef.of main_call0_v5 : TRef sig ⟨S1700000, .i32⟩) (TRef.of main_call0_v48 : TRef sig ⟨S1700000, .i32⟩) (TRef.of main_call0_v49 : TRef sig ⟨S1700000, .i1⟩) _ _).trans ?_
  rw [← after_eq_take (hostOps2 (F := Ideal)) 2 (W4 m ρ c) (Proc.devRef .tc main_call0_v5) (nw 2 main_call0_v5 (by decide)), at_call0_v5 m ρ c]
  rw [← after_eq_take (hostOps2 (F := Ideal)) 2 (W4 m ρ c) (Proc.devRef .tc main_call0_v48) (nw 2 main_call0_v48 (by decide)), at_call0_v48 m ρ c]
  unfold val_main_v80
  rfl
theorem at_call0_c_10 (c : Dev nD) : (TRef.of main_call0_c_10 : TRef sig ⟨S_, .i32⟩).ofBuf (StableHlo.after (hostOps2 (F := Ideal)) (W4 m ρ c) (Proc.devRef .tc main_call0_c_10)) = val_main_c_18 (F := Ideal) := by
  refine (congrArg (TRef.ofBuf (TRef.of main_call0_c_10 : TRef sig ⟨S_, .i32⟩)) (after_at (hostOps2 (F := Ideal)) 3 _ rfl (W4 m ρ c) _ (nw 4 main_call0_c_10 (by decide)))).trans ?_
  refine (nullary_step (TRef.of main_call0_c_10 : TRef sig ⟨S_, .i32⟩) _ _).trans ?_
  unfold val_main_c_18
  rfl
theorem at_call0_v50 (c : Dev nD) : (TRef.of main_call0_v50 : TRef sig ⟨S1700000, .i32⟩).ofBuf (StableHlo.after (hostOps2 (F := Ideal)) (W4 m ρ c) (Proc.devRef .tc main_call0_v50)) = val_main_v81 (F := Ideal) := by
  refine (congrArg (TRef.ofBuf (TRef.of main_call0_v50 : TRef sig ⟨S1700000, .i32⟩)) (after_at (hostOps2 (F := Ideal)) 4 _ rfl (W4 m ρ c) _ (nw 5 main_call0_v50 (by decide)))).trans ?_
  refine (unary_step (TRef.of main_call0_c_10 : TRef sig ⟨S_, .i32⟩) (TRef.of main_call0_v50 : TRef sig ⟨S1700000, .i32⟩) _ _).trans ?_
  rw [← after_eq_take (hostOps2 (F := Ideal)) 4 (W4 m ρ c) (Proc.devRef .tc main_call0_c_10) (nw 4 main_call0_c_10 (by decide)), at_call0_c_10 m ρ c]
  unfold val_main_v81
  rfl
theorem at_call0_v51 (c : Dev nD) : (TRef.of main_call0_v51 : TRef sig ⟨S1700000, .i32⟩).ofBuf (StableHlo.after (hostOps2 (F := Ideal)) (W4 m ρ c) (Proc.devRef .tc main_call0_v51)) = val_main_v82 (F := Ideal) (m ((c : Thread nD τ).loc main_arg1)) := by
  refine (congrArg (TRef.ofBuf (TRef.of main_call0_v51 : TRef sig ⟨S1700000, .i32⟩)) (after_at (hostOps2 (F := Ideal)) 5 _ rfl (W4 m ρ c) _ (nw 6 main_call0_v51 (by decide)))).trans ?_
  refine (binary_step (TRef.of main_call0_v5 : TRef sig ⟨S1700000, .i32⟩) (TRef.of main_call0_v50 : TRef sig ⟨S1700000, .i32⟩) (TRef.of main_call0_v51 : TRef sig ⟨S1700000, .i32⟩) _ _).trans ?_
  rw [← after_eq_take (hostOps2 (F := Ideal)) 5 (W4 m ρ c) (Proc.devRef .tc main_call0_v5) (nw 5 main_call0_v5 (by decide)), at_call0_v5 m ρ c]
  rw [← after_eq_take (hostOps2 (F := Ideal)) 5 (W4 m ρ c) (Proc.devRef .tc main_call0_v50) (nw 5 main_call0_v50 (by decide)), at_call0_v50 m ρ c]
  unfold val_main_v82
  rfl
theorem at_call0_v52 (c : Dev nD) : (TRef.of main_call0_v52 : TRef sig ⟨S1700000, .i32⟩).ofBuf (StableHlo.after (hostOps2 (F := Ideal)) (W4 m ρ c) (Proc.devRef .tc main_call0_v52)) = val_main_v83 (F := Ideal) (m ((c : Thread nD τ).loc main_arg1)) := by
  refine (congrArg (TRef.ofBuf (TRef.of main_call0_v52 : TRef sig ⟨S1700000, .i32⟩)) (after_at (hostOps2 (F := Ideal)) 6 _ rfl (W4 m ρ c) _ (nw 7 main_call0_v52 (by decide)))).trans ?_
  refine (ternary_step (TRef.of main_call0_v49 : TRef sig ⟨S1700000, .i1⟩) (TRef.of main_call0_v51 : TRef sig ⟨S1700000, .i32⟩) (TRef.of main_call0_v5 : TRef sig ⟨S1700000, .i32⟩) (TRef.of main_call0_v52 : TRef sig ⟨S1700000, .i32⟩) _ _).trans ?_
  rw [← after_eq_take (hostOps2 (F := Ideal)) 6 (W4 m ρ c) (Proc.devRef .tc main_call0_v49) (nw 6 main_call0_v49 (by decide)), at_call0_v49 m ρ c]
  rw [← after_eq_take (hostOps2 (F := Ideal)) 6 (W4 m ρ c) (Proc.devRef .tc main_call0_v51) (nw 6 main_call0_v51 (by decide)), at_call0_v51 m ρ c]
  rw [← after_eq_take (hostOps2 (F := Ideal)) 6 (W4 m ρ c) (Proc.devRef .tc main_call0_v5) (nw 6 main_call0_v5 (by decide)), at_call0_v5 m ρ c]
  unfold val_main_v83
  rfl
theorem at_call0_v53 (c : Dev nD) : (TRef.of main_call0_v53 : TRef sig ⟨S1700000x1, .i32⟩).ofBuf (StableHlo.after (hostOps2 (F := Ideal)) (W4 m ρ c) (Proc.devRef .tc main_call0_v53)) = val_main_v84 (F := Ideal) (m ((c : Thread nD τ).loc main_arg1)) := by
  refine (congrArg (TRef.ofBuf (TRef.of main_call0_v53 : TRef sig ⟨S1700000x1, .i32⟩)) (after_at (hostOps2 (F := Ideal)) 7 _ rfl (W4 m ρ c) _ (nw 8 main_call0_v53 (by decide)))).trans ?_
  refine (unary_step (TRef.of main_call0_v52 : TRef sig ⟨S1700000, .i32⟩) (TRef.of main_call0_v53 : TRef sig ⟨S1700000x1, .i32⟩) _ _).trans ?_
  rw [← after_eq_take (hostOps2 (F := Ideal)) 7 (W4 m ρ c) (Proc.devRef .tc main_call0_v52) (nw 7 main_call0_v52 (by decide)), at_call0_v52 m ρ c]
  unfold val_main_v84
  rfl
theorem at_call0_v54 (c : Dev nD) : (TRef.of main_call0_v54 : TRef sig ⟨S1700000x64, .f32⟩).ofBuf (StableHlo.after (hostOps2 (F := Ideal)) (W4 m ρ c) (Proc.devRef .tc main_call0_v54)) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (congrArg (TRef.ofBuf (TRef.of main_call0_v54 : TRef sig ⟨S1700000x64, .f32⟩)) (after_at (hostOps2 (F := Ideal)) 8 _ rfl (W4 m ρ c) _ (nw 9 main_call0_v54 (by decide)))).trans ?_
  refine (binary_step (TRef.of main_call0_v47 : TRef sig ⟨S100000x64, .f32⟩) (TRef.of main_call0_v53 : TRef sig ⟨S1700000x1, .i32⟩) (TRef.of main_call0_v54 : TRef sig ⟨S1700000x64, .f32⟩) _ _).trans ?_
  rw [← after_eq_take (hostOps2 (F := Ideal)) 8 (W4 m ρ c) (Proc.devRef .tc main_call0_v47) (nw 8 main_call0_v47 (by decide)), at_call0_v47 m ρ c]
  rw [← after_eq_take (hostOps2 (F := Ideal)) 8 (W4 m ρ c) (Proc.devRef .tc main_call0_v53) (nw 8 main_call0_v53 (by decide)), at_call0_v53 m ρ c]
  unfold val_main_v85
  rfl
theorem at_call0_v55 (c : Dev nD) : (TRef.of main_call0_v55 : TRef sig ⟨S1700000x1, .f32⟩).ofBuf (StableHlo.after (hostOps2 (F := Ideal)) (W4 m ρ c) (Proc.devRef .tc main_call0_v55)) = val_main_v86 (F := Ideal) (m ((c : Thread nD τ).loc main_arg1)) (m ((c : Thread nD τ).loc main_arg2)) := by
  refine (congrArg (TRef.ofBuf (TRef.of main_call0_v55 : TRef sig ⟨S1700000x1, .f32⟩)) (after_at (hostOps2 (F := Ideal)) 9 _ rfl (W4 m ρ c) _ (nw 10 main_call0_v55 (by decide)))).trans ?_
  refine (unary_step (TRef.of main_call0_v31 : TRef sig ⟨S1700000, .f32⟩) (TRef.of main_call0_v55 : TRef sig ⟨S1700000x1, .f32⟩) _ _).trans ?_
  rw [← after_eq_take (hostOps2 (F := Ideal)) 9 (W4 m ρ c) (Proc.devRef .tc main_call0_v31) (nw 9 main_call0_v31 (by decide)), at_call0_v31 m ρ c]
  unfold val_main_v86
  rfl
theorem at_call0_v56 (c : Dev nD) : (TRef.of main_call0_v56 : TRef sig ⟨S1700000x64, .f32⟩).ofBuf (StableHlo.after (hostOps2 (F := Ideal)) (W4 m ρ c) (Proc.devRef .tc main_call0_v56)) = val_main_v87 (F := Ideal) (m ((c : Thread nD τ).loc main_arg1)) (m ((c : Thread nD τ).loc main_arg2)) := by
  refine (congrArg (TRef.ofBuf (TRef.of main_call0_v56 : TRef sig ⟨S1700000x64, .f32⟩)) (after_at (hostOps2 (F := Ideal)) 10 _ rfl (W4 m ρ c) _ (nw 11 main_call0_v56 (by decide)))).trans ?_
  refine (unary_step (TRef.of main_call0_v55 : TRef sig ⟨S1700000x1, .f32⟩) (TRef.of main_call0_v56 : TRef sig ⟨S1700000x64, .f32⟩) _ _).trans ?_
  rw [← after_eq_take (hostOps2 (F := Ideal)) 10 (W4 m ρ c) (Proc.devRef .tc main_call0_v55) (nw 10 main_call0_v55 (by decide)), at_call0_v55 m ρ c]
  unfold val_main_v87
  rfl
theorem at_call0_v57 (c : Dev nD) : (TRef.of main_call0_v57 : TRef sig ⟨S1700000x64, .f32⟩).ofBuf (StableHlo.after (hostOps2 (F := Ideal)) (W4 m ρ c) (Proc.devRef .tc main_call0_v57)) = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (congrArg (TRef.ofBuf (TRef.of main_call0_v57 : TRef sig ⟨S1700000x64, .f32⟩)) (after_at (hostOps2 (F := Ideal)) 11 _ rfl (W4 m ρ c) _ (nw 12 main_call0_v57 (by decide)))).trans ?_
  refine (binary_step (TRef.of main_call0_v54 : TRef sig ⟨S1700000x64, .f32⟩) (TRef.of main_call0_v56 : TRef sig ⟨S1700000x64, .f32⟩) (TRef.of main_call0_v57 : TRef sig ⟨S1700000x64, .f32⟩) _ _).trans ?_
  rw [← after_eq_take (hostOps2 (F := Ideal)) 11 (W4 m ρ c) (Proc.devRef .tc main_call0_v54) (nw 11 main_call0_v54 (by decide)), at_call0_v54 m ρ c]
  rw [← after_eq_take (hostOps2 (F := Ideal)) 11 (W4 m ρ c) (Proc.devRef .tc main_call0_v56) (nw 11 main_call0_v56 (by decide)), at_call0_v56 m ρ c]
  unfold val_main_v88
  rfl
theorem at_call0_cst_11 (c : Dev nD) : (TRef.of main_call0_cst_11 : TRef sig ⟨S_, .f32⟩).ofBuf (StableHlo.after (hostOps2 (F := Ideal)) (W4 m ρ c) (Proc.devRef .tc main_call0_cst_11)) = val_main_cst_19 (F := Ideal) := by
  refine (congrArg (TRef.ofBuf (TRef.of main_call0_cst_11 : TRef sig ⟨S_, .f32⟩)) (after_at (hostOps2 (F := Ideal)) 12 _ rfl (W4 m ρ c) _ (nw 13 main_call0_cst_11 (by decide)))).trans ?_
  refine (nullary_step (TRef.of main_call0_cst_11 : TRef sig ⟨S_, .f32⟩) _ _).trans ?_
  unfold val_main_cst_19
  rfl
theorem at_call0_v58 (c : Dev nD) : (TRef.of main_call0_v58 : TRef sig ⟨S100000x64, .f32⟩).ofBuf (StableHlo.after (hostOps2 (F := Ideal)) (W4 m ρ c) (Proc.devRef .tc main_call0_v58)) = val_main_v89 (F := Ideal) := by
  refine (congrArg (TRef.ofBuf (TRef.of main_call0_v58 : TRef sig ⟨S100000x64, .f32⟩)) (after_at (hostOps2 (F := Ideal)) 13 _ rfl (W4 m ρ c) _ (nw 14 main_call0_v58 (by decide)))).trans ?_
  refine (unary_step (TRef.of main_call0_cst_11 : TRef sig ⟨S_, .f32⟩) (TRef.of main_call0_v58 : TRef sig ⟨S100000x64, .f32⟩) _ _).trans ?_
  rw [← after_eq_take (hostOps2 (F := Ideal)) 13 (W4 m ρ c) (Proc.devRef .tc main_call0_cst_11) (nw 13 main_call0_cst_11 (by decide)), at_call0_cst_11 m ρ c]
  unfold val_main_v89
  rfl
theorem at_call0_v59 (c : Dev nD) : (TRef.of main_call0_v59 : TRef sig ⟨S1700000x1, .i32⟩).ofBuf (StableHlo.after (hostOps2 (F := Ideal)) (W4 m ρ c) (Proc.devRef .tc main_call0_v59)) = val_main_v90 (F := Ideal) (m ((c : Thread nD τ).loc main_arg1)) := by
  refine (congrArg (TRef.ofBuf (TRef.of main_call0_v59 : TRef sig ⟨S1700000x1, .i32⟩)) (after_at (hostOps2 (F := Ideal)) 14 _ rfl (W4 m ρ c) _ (nw 15 main_call0_v59 (by decide)))).trans ?_
  refine (unary_step (TRef.of main_call0_v6 : TRef sig ⟨S1700000, .i32⟩) (TRef.of main_call0_v59 : TRef sig ⟨S1700000x1, .i32⟩) _ _).trans ?_
  rw [← after_eq_take (hostOps2 (F := Ideal)) 14 (W4 m ρ c) (Proc.devRef .tc main_call0_v6) (nw 14 main_call0_v6 (by decide)), at_call0_v6 m ρ c]
  unfold val_main_v90
  rfl
theorem at_call0_v60 (c : Dev nD) : (TRef.of main_call0_v60 : TRef sig ⟨S100000x64, .f32⟩).ofBuf (StableHlo.after (hostOps2 (F := Ideal)) (W4 m ρ c) (Proc.devRef .tc main_call0_v60)) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (congrArg (TRef.ofBuf (TRef.of main_call0_v60 : TRef sig ⟨S100000x64, .f32⟩)) (after_at (hostOps2 (F := Ideal)) 15 _ rfl (W4 m ρ c) _ (nw 16 main_call0_v60 (by decide)))).trans ?_
  refine (ternary_step (TRef.of main_call0_v58 : TRef sig ⟨S100000x64, .f32⟩) (TRef.of main_call0_v59 : TRef sig ⟨S1700000x1, .i32⟩) (TRef.of main_call0_v57 : TRef sig ⟨S1700000x64, .f32⟩) (TRef.of main_call0_v60 : TRef sig ⟨S100000x64, .f32⟩) _ _).trans ?_
  rw [← after_eq_take (hostOps2 (F := Ideal)) 15 (W4 m ρ c) (Proc.devRef .tc main_call0_v58) (nw 15 main_call0_v58 (by decide)), at_call0_v58 m ρ c]
  rw [← after_eq_take (hostOps2 (F := Ideal)) 15 (W4 m ρ c) (Proc.devRef .tc main_call0_v59) (nw 15 main_call0_v59 (by decide)), at_call0_v59 m ρ c]
  rw [← after_eq_take (hostOps2 (F := Ideal)) 15 (W4 m ρ c) (Proc.devRef .tc main_call0_v57) (nw 15 main_call0_v57 (by decide)), at_call0_v57 m ρ c]
  unfold val_main_v91
  rfl
theorem at_call0_v61 (c : Dev nD) : (TRef.of main_call0_v61 : TRef sig ⟨S1x64, .f32⟩).ofBuf (StableHlo.after (hostOps2 (F := Ideal)) (W4 m ρ c) (Proc.devRef .tc main_call0_v61)) = val_main_v92 (F := Ideal) (m ((c : Thread nD τ).loc main_arg6)) := by
  refine (congrArg (TRef.ofBuf (TRef.of main_call0_v61 : TRef sig ⟨S1x64, .f32⟩)) (after_at (hostOps2 (F := Ideal)) 16 _ rfl (W4 m ρ c) _ (nw 17 main_call0_v61 (by decide)))).trans ?_
  refine (unary_step (TRef.of main_arg6 : TRef sig ⟨S64, .f32⟩) (TRef.of main_call0_v61 : TRef sig ⟨S1x64, .f32⟩) _ _).trans ?_
  rw [← after_eq_take (hostOps2 (F := Ideal)) 16 (W4 m ρ c) (Proc.devRef .tc main_arg6) (nw 16 main_arg6 (by decide)), at_arg6 m ρ c]
  unfold val_main_v92
  rfl
theorem at_call0_v62 (c : Dev nD) : (TRef.of main_call0_v62 : TRef sig ⟨S100000x64, .f32⟩).ofBuf (StableHlo.after (hostOps2 (F := Ideal)) (W4 m ρ c) (Proc.devRef .tc main_call0_v62)) = val_main_v93 (F := Ideal) (m ((c : Thread nD τ).loc main_arg6)) := by
  refine (congrArg (TRef.ofBuf (TRef.of main_call0_v62 : TRef sig ⟨S100000x64, .f32⟩)) (after_at (hostOps2 (F := Ideal)) 17 _ rfl (W4 m ρ c) _ (nw 18 main_call0_v62 (by decide)))).trans ?_
  refine (unary_step (TRef.of main_call0_v61 : TRef sig ⟨S1x64, .f32⟩) (TRef.of main_call0_v62 : TRef sig ⟨S100000x64, .f32⟩) _ _).trans ?_
  rw [← after_eq_take (hostOps2 (F := Ideal)) 17 (W4 m ρ c) (Proc.devRef .tc main_call0_v61) (nw 17 main_call0_v61 (by decide)), at_call0_v61 m ρ c]
  unfold val_main_v93
  rfl
theorem at_v0 (c : Dev nD) : (TRef.of main_v0 : TRef sig ⟨S100000x64, .f32⟩).ofBuf (StableHlo.after (hostOps2 (F := Ideal)) (W4 m ρ c) (Proc.devRef .tc main_v0)) = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (congrArg (TRef.ofBuf (TRef.of main_v0 : TRef sig ⟨S100000x64, .f32⟩)) (after_at (hostOps2 (F := Ideal)) 18 _ rfl (W4 m ρ c) _ (nw 19 main_v0 (by decide)))).trans ?_
  refine (binary_step (TRef.of main_call0_v60 : TRef sig ⟨S100000x64, .f32⟩) (TRef.of main_call0_v62 : TRef sig ⟨S100000x64, .f32⟩) (TRef.of main_v0 : TRef sig ⟨S100000x64, .f32⟩) _ _).trans ?_
  rw [← after_eq_take (hostOps2 (F := Ideal)) 18 (W4 m ρ c) (Proc.devRef .tc main_call0_v60) (nw 18 main_call0_v60 (by decide)), at_call0_v60 m ρ c]
  rw [← after_eq_take (hostOps2 (F := Ideal)) 18 (W4 m ρ c) (Proc.devRef .tc main_call0_v62) (nw 18 main_call0_v62 (by decide)), at_call0_v62 m ρ c]
  unfold val_main_v94
  rfl

/-! ## The result buffer at the last boundary -/

theorem strip_v0 (X : (⟨S100000x64, .f32⟩ : BufTy).Contents (Elt Ideal)) : (TRef.of main_v0 : TRef sig ⟨S100000x64, .f32⟩).ofBuf X = X := rfl
/-- THE RESULT: the result buffer ends holding the reference's result of the same arguments. -/
theorem raw_v0 (c : Dev nD) : W5 m ρ c (Proc.devRef .tc main_v0) = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (strip_v0 _).symm.trans (at_v0 m ρ c)

end Cert.KernelIdeal.Stretch2

end
-- ==== Proof.lean ====
/-
  A two-layer graph convolution with self-loops and symmetric normalisation, computed two ways, agrees on the extended reals.

  Both programs build, from the edge indices and weights, the source and target lists with a self-loop per node and every
  edge's normalisation (inverse root of the weighted in-degree at the source, times the weight, times the inverse root at
  the target). Each layer multiplies the node features by the layer's weights, gathers the product's rows at the sources,
  scales them by the normalisation, adds them up at the targets and adds the layer's bias; between the layers the
  features are clamped below at zero.

  The kernel program does the two products in kernels that walk 20 blocks of 5000 rows, and the second kernel adds the
  first bias and clamps inside the kernel, before its product. A row of a product depends on that row of the left operand
  only, so the blocks tile one whole-array function; narrowing the operands to bf16 is the identity on the extended reals
  and a product into a zero accumulator is the plain sum over the contracted axis — the host product's own value. So each
  kernel's result array is the reference's product of equal operands, and every host operation around the kernels is the
  reference's operation on operands holding the reference's stages. The kernel program computes the lists and the
  normalisation once where the reference computes them per layer, by the same operations from the same arguments.
  No law beyond this is used: the two results are the same function of the arguments, whatever the inputs, and the
  precondition is not opened.
-/
import proofs.«144796_j88476326297971_2_alg».proof.Defs
import proofs.«144796_j88476326297971_2_alg».proof.Proof.Gen.Kernel
import proofs.«144796_j88476326297971_2_alg».proof.Proof.Gen.Kernel.Skeleton
import proofs.«144796_j88476326297971_2_alg».proof.Proof.Gen.Kernel.Launch
import proofs.«144796_j88476326297971_2_alg».proof.Proof.Gen.Kernel.Points
import proofs.«144796_j88476326297971_2_alg».proof.Proof.Gen.Kernel.Frame
import proofs.«144796_j88476326297971_2_alg».proof.Proof.Gen.KernelIdeal
import proofs.«144796_j88476326297971_2_alg».proof.Proof.Gen.KernelIdeal.Skeleton
import proofs.«144796_j88476326297971_2_alg».proof.Proof.Gen.KernelIdeal.Launch
import proofs.«144796_j88476326297971_2_alg».proof.Proof.Gen.KernelIdeal.Points
import proofs.«144796_j88476326297971_2_alg».proof.Proof.Gen.KernelIdeal.Frame
import proofs.«144796_j88476326297971_2_alg».proof.Proof.Gen.ReferenceIdeal
import proofs.«144796_j88476326297971_2_alg».proof.Proof.Gen.Pre_finite_inputs
import proofs.«144796_j88476326297971_2_alg».proof.Proof.Gen.ReferenceIdeal.Run
import proofs.«144796_j88476326297971_2_alg».proof.Proof.Gen.ReferenceIdeal.Read
import proofs.«144796_j88476326297971_2_alg».proof.Proof.KernelRun
import proofs.«144796_j88476326297971_2_alg».proof.Proof.Stretch2
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel program on the extended reals rewrote no operation. -/
theorem preserves : Cert.preserves_Kernel_KernelIdeal := trivial

/-- From memories agreeing on the arguments both programs end with the reference's result of those arguments: the
    kernel program's last boundary holds it in the result buffer, and the reference's run states it. -/
theorem algebraic : Cert.algebraic_KernelIdeal_ReferenceIdeal := by
  intro m ρ m' ρ' _ hagree
  refine ⟨fun c => Cert.ReferenceIdeal.Read.val_main_v94 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Stretch2.raw_v0 m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v94_eq]
    obtain ⟨e0, e1, e2, e3, e4, e5, e6⟩ := hagree c
    rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
